-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S1024 : Shape := ⟨1, ![1024]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S131072 .f32) (main_arg1 : IVec S1024 32) : IVec S_ 1 :=
  let main_v0 : FVec F S131072 .f32 := Host.absf main_arg0
  let main_cst : FVec F S_ .f32 := constant S_ .f32 0x7F800000#32
  let main_v1 : FVec F S131072 .f32 := broadcastInDim S131072 ![] bcast_S_S131072 main_cst
  let main_v2 : IVec S131072 1 := cmpf .olt main_v0 main_v1
  let main_c : IVec S_ 1 := constantI S_ 1 1#1
  let main_v3 : IVec S_ 1 := (fun x v => Host.reduce IntOp.andi x v reducesTo_S131072_S_d0 h_S_) main_v2 main_c
  main_v3
-- ==== Kernel.lean ====
abbrev S131072 : Shape := ⟨1, ![131072]⟩
abbrev S1024 : Shape := ⟨1, ![1024]⟩
abbrev S_ : Shape := ⟨0, ![]⟩
abbrev S1024x1 : Shape := ⟨2, ![1024, 1]⟩
abbrev S1024x128 : Shape := ⟨2, ![1024, 128]⟩
abbrev S1x1 : Shape := ⟨2, ![1, 1]⟩
abbrev S1 : Shape := ⟨1, ![1]⟩
abbrev S1x131072 : Shape := ⟨2, ![1, 131072]⟩
abbrev S16x128 : Shape := ⟨2, ![16, 128]⟩
abbrev S1x2048 : Shape := ⟨2, ![1, 2048]⟩
abbrev S8x128 : Shape := ⟨2, ![8, 128]⟩
abbrev S1024x2048 : Shape := ⟨2, ![1024, 2048]⟩
abbrev S2048 : Shape := ⟨1, ![2048]⟩

abbrev nBuf : Space → Nat
  | .hbm => 59
  | .vmem => 11
  | .smem => 0
  | _ => 0

abbrev bufTy : (tb : Table) → Fin (tcTables nBuf tb) → BufTy
  | .hbm, ⟨0, _⟩ => ⟨S131072, .f32⟩
  | .hbm, ⟨1, _⟩ => ⟨S1024, .i32⟩
  | .hbm, ⟨2, _⟩ => ⟨S_, .f32⟩
  | .hbm, ⟨3, _⟩ => ⟨S131072, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S_, .f32⟩
  | .hbm, ⟨13, _⟩ => ⟨S1024, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S_, .f32⟩
  | .hbm, ⟨30, _⟩ => ⟨S1024, .f32⟩
  | .hbm, ⟨31, _⟩ => ⟨S131072, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024, .f32⟩
  | .hbm, ⟨41, _⟩ => ⟨S1024x128, .f32⟩
  | .hbm, ⟨42, _⟩ => ⟨S1024x128, .f32⟩
  | .hbm, ⟨43, _⟩ => ⟨S1x1, .f32⟩
  | .hbm, ⟨44, _⟩ => ⟨S_, .f32⟩
  | .hbm, ⟨45, _⟩ => ⟨S1x131072, .f32⟩
  | .hbm, ⟨46, _⟩ => ⟨S1x131072, .f32⟩
  | .hbm, ⟨47, _⟩ => ⟨S1024x1, .f32⟩
  | .hbm, ⟨48, _⟩ => ⟨S16x128, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1x1, .f32⟩
  | .local _ .vmem, ⟨3, _⟩ => ⟨S1024x1, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S8x128, .f32⟩
  | .local _ .vmem, ⟨9, _⟩ => ⟨S8x128, .f32⟩
  | .local _ .vmem, ⟨10, _⟩ => ⟨S1x2048, .f32⟩
  | _, _ => ⟨S131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_c_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_12 : BitVec 32 := 0#32
  let v27 : BitVec 1 := Scalar.cmpi .ne v26 c0_i32_12
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S131072 : S_.BroadcastsInDim S131072 (![] : Fin 0 → Fin S131072.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S131072_S_d0 : S131072.ReducesTo [0] S_
  h_S_ : 0 < S_.numel
  shapeCasts_S131072_S1024x128 : S131072.ShapeCasts S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  broadcasts_S1x1_S1024x128 : S1x1.Broadcasts S1024x128
  inb_S1x1_S1x1_0_0 : ∀ a, (![0, 0] : Fin 2 → Nat) a + S1x1.size a ≤ S1x1.size a
  h_S1x1 : 0 < S1x1.numel
  shapeCasts_S1x1_S_ : S1x1.ShapeCasts S_
  shapeCasts_S131072_S1x131072 : S131072.ShapeCasts S1x131072
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  broadcasts_S1x2048_S1024x2048 : S1x2048.Broadcasts S1024x2048
  reduces_S1024x2048_S2048 : S1024x2048.Reduces [0] S2048
  shapeCasts_S2048_S1x2048 : S2048.ShapeCasts S1x2048
  reduces_S1x2048_S1 : S1x2048.Reduces [1] S1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  slices_S16x128_S1x1_8_0 : S16x128.Slices ![8, 0] S1x1
  scatter_S131072_S1024x1_S1024_n_0_0_1_wf : ScatterDims.WF S131072 S1024x1 S1024 [] [0] [0] 1
  gather_S131072_S1024x1_S1024_n_0_n_n_0_1_1_wf : GatherDims.WF S131072 S1024x1 S1024 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S1024x1.size a
  hwx1_0 : ∀ i : grid1.Coords, EltTy.bits .f32 = 32 ∨ (Rect.block (s := S1024x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x131072.size a
  hwx1_1 : ∀ i : grid1.Coords, EltTy.bits .f32 = 32 ∨ (Rect.block (s := S1x131072) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x131072.size a
  hwx1_2 : ∀ i : grid1.Coords, EltTy.bits .f32 = 32 ∨ (Rect.block (s := S1x131072) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S16x128.size a
  hwx1_3 : ∀ i : grid1.Coords, EltTy.bits .f32 = 32 ∨ (Rect.block (s := S16x128) S8x128.size (cc1_transform_3 i) (hinb1_3 i)).WholeWords (EltTy.packing .f32)

variable [Facts₀]

def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def gather_S131072_S1024x1_S1024_n_0_n_n_0_1_1 : GatherDims S131072 S1024x1 S1024 where
  offsetDims := []
  collapsedSliceDims := [0]
  operandBatchingDims := []
  startIndicesBatchingDims := []
  startIndexMap := [0]
  indexVectorDim := 1
  sliceSizes := ![1]
  wf := gather_S131072_S1024x1_S1024_n_0_n_n_0_1_1_wf

abbrev win0_0 : Pipeline.Window sig grid0 :=
  Pipeline.Window.ofSpec (Memref.whole main_v28) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S1024x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S131072 : Shape := ⟨1, ![131072]⟩
abbrev S1024 : Shape := ⟨1, ![1024]⟩
abbrev S_ : Shape := ⟨0, ![]⟩
abbrev S1024x1 : Shape := ⟨2, ![1024, 1]⟩
abbrev S1 : Shape := ⟨1, ![1]⟩
abbrev S1x131072 : Shape := ⟨2, ![1, 131072]⟩
abbrev S1024x131072 : Shape := ⟨2, ![1024, 131072]⟩

abbrev nBuf : Space → Nat
  | .hbm => 83
  | .vmem => 0
  | .smem => 0
  | _ => 0

abbrev bufTy : (tb : Table) → Fin (tcTables nBuf tb) → BufTy
  | .hbm, ⟨0, _⟩ => ⟨S131072, .f32⟩
  | .hbm, ⟨1, _⟩ => ⟨S1024, .i32⟩
  | .hbm, ⟨2, _⟩ => ⟨S_, .f32⟩
  | .hbm, ⟨3, _⟩ => ⟨S131072, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S_, .f32⟩
  | .hbm, ⟨13, _⟩ => ⟨S1024, .f32⟩
  | .hbm, ⟨14, _⟩ => ⟨S131072, .f32⟩
  | .hbm, ⟨15, _⟩ => ⟨S_, .f32⟩
  | .hbm, ⟨16, _⟩ => ⟨S_, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S131072, .f32⟩
  | .hbm, ⟨28, _⟩ => ⟨S131072, .f32⟩
  | .hbm, ⟨29, _⟩ => ⟨S131072, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S131072, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S_, .f32⟩
  | .hbm, ⟨51, _⟩ => ⟨S1024, .f32⟩
  | .hbm, ⟨52, _⟩ => ⟨S131072, .f32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S1024, .f32⟩
  | .hbm, ⟨62, _⟩ => ⟨S1024x1, .f32⟩
  | .hbm, ⟨63, _⟩ => ⟨S1x131072, .f32⟩
  | .hbm, ⟨64, _⟩ => ⟨S1024x131072, .f32⟩
  | .hbm, ⟨65, _⟩ => ⟨S1024x131072, .f32⟩
  | .hbm, ⟨66, _⟩ => ⟨S1024x131072, .f32⟩
  | .hbm, ⟨67, _⟩ => ⟨S_, .f32⟩
  | .hbm, ⟨68, _⟩ => ⟨S1024x131072, .f32⟩
  | .hbm, ⟨69, _⟩ => ⟨S1024x131072, .f32⟩
  | .hbm, ⟨70, _⟩ => ⟨S_, .f32⟩
  | .hbm, ⟨71, _⟩ => ⟨S1024x131072, .f32⟩
  | .hbm, ⟨72, _⟩ => ⟨S1024x131072, .f32⟩
  | .hbm, ⟨73, _⟩ => ⟨S1x131072, .f32⟩
  | .hbm, ⟨74, _⟩ => ⟨S1024x131072, .f32⟩
  | .hbm, ⟨75, _⟩ => ⟨S1024x131072, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_call0_cst_0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_c_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_call1_cst : Ref sig .tc := ⟨.hbm, 70, rfl⟩
abbrev main_call1_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_12 : Ref sig .tc := ⟨.hbm, 76, rfl⟩
abbrev main_v45 : Ref sig .tc := ⟨.hbm, 77, rfl⟩
abbrev main_cst_13 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S1024 : S_.BroadcastsInDim S1024 (![] : Fin 0 → Fin S1024.rank)
  bcast_S1024_S1024x1_0 : S1024.BroadcastsInDim S1024x1 (![0] : Fin 1 → Fin S1024x1.rank)
  reducesTo_S131072_S_d0 : S131072.ReducesTo [0] S_
  h_S_ : 0 < S_.numel
  bcast_S_S1 : S_.BroadcastsInDim S1 (![] : Fin 0 → Fin S1.rank)
  bcast_S1_S131072_0 : S1.BroadcastsInDim S131072 (![0] : Fin 1 → Fin S131072.rank)
  bcast_S131072_S1x131072_1 : S131072.BroadcastsInDim S1x131072 (![1] : Fin 1 → Fin S1x131072.rank)
  bcast_S1024x1_S1024x131072_0_1 : S1024x1.BroadcastsInDim S1024x131072 (![0, 1] : Fin 2 → Fin S1024x131072.rank)
  bcast_S1x131072_S1024x131072_0_1 : S1x131072.BroadcastsInDim S1024x131072 (![0, 1] : Fin 2 → Fin S1024x131072.rank)
  bcast_S_S1024x131072 : S_.BroadcastsInDim S1024x131072 (![] : Fin 0 → Fin S1024x131072.rank)
  reducesTo_S1024x131072_S_d0_1 : S1024x131072.ReducesTo [0, 1] S_
  scatter_S131072_S1024x1_S1024_n_0_0_1_wf : ScatterDims.WF S131072 S1024x1 S1024 [] [0] [0] 1
  gather_S131072_S1024x1_S1024_n_0_n_n_0_1_1_wf : GatherDims.WF S131072 S1024x1 S1024 [] [0] [] [0] [] 1 ![1]

variable [Facts₀]

def scatter_S131072_S1024x1_S1024_n_0_0_1 : ScatterDims S131072 S1024x1 S1024 where
  updateWindowDims := []
  insertedWindowDims := [0]
  scatterDimsToOperandDims := [0]
  indexVectorDim := 1
  wf := scatter_S131072_S1024x1_S1024_n_0_0_1_wf
def gather_S131072_S1024x1_S1024_n_0_n_n_0_1_1 : GatherDims S131072 S1024x1 S1024 where
  offsetDims := []
  collapsedSliceDims := [0]
  operandBatchingDims := []
  startIndicesBatchingDims := []
  startIndexMap := [0]
  indexVectorDim := 1
  sliceSizes := ![1]
  wf := gather_S131072_S1024x1_S1024_n_0_n_n_0_1_1_wf

class Facts : Prop extends Facts₀ where

variable [Facts]
-- ==== Proof.BitsRegion0.lean ====
/- The first TensorCore region of the program (custom_call 0, one grid point): the body's triple, the
   pipeline's proof data at the region-entry contents, the body obligation, and the closed form of the
   output array the region leaves. Everything is stated at any float instance and at a parameter `V`, the
   TensorCore's buffer contents when the region is entered. -/
import proofs.«179181_j83227876262472_2_alg».proof.Proof.Gen.Kernel.Launch
import proofs.«179181_j83227876262472_2_alg».proof.Proof.Gen.Kernel.Skeleton
import proofs.«179181_j83227876262472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long axes: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x128 rectangle: what each input load reads. -/
abbrev r0_in : Rect S1024x128 := Rect.unit (s := S1024x128) ![0, 0] S1024x128.size inb_S1024x128_S1024x128_0_0
/-- The whole 1x1 rectangle: what the one store writes. -/
abbrev r0_out : Rect S1x1 := Rect.unit (s := S1x1) ![0, 0] S1x1.size inb_S1x1_S1x1_0_0

/-! ## What the body leaves in the output window's buffer -/

/-- Window 2's staging buffer after the body, from the two input blocks: its one store as a piece. -/
def out0_2 (x0 x1 : Vec F S1024x128 .f32) : Vec F S1x1 .f32 :=
  View.canon [⟨r0_out, k0_pay1 (View.ld x0 r0_in) (View.ld x1 r0_in)⟩]

/-- The one store tiles the buffer, so it covers it. -/
theorem cover0_2 (p0 : Vec F S1x1 .f32) (y : S1x1.Idx) :
    ∃ pc ∈ ([⟨r0_out, p0⟩] : List (View.Piece (Elt F) S1x1 .f32)), y ∈ pc.1.set :=
  View.cover_of_tiled [⟨r0_out, p0⟩] S1x1.size (by rfl) y

/-! ## The body's triple -/

set_option maxHeartbeats 1000000 in
/-- The kernel body on whole staging memrefs, the inputs' at read contents `x0`, `x1` and the output's at anything,
    runs to the continuation holding the inputs' as they were and the output's at `out0_2` of the inputs. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1x1 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ce_kernel i arg1 harg1 arg2 harg2 arg3 harg3) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the class's
    invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Closed form: the output array as one function of the two input arrays -/

/-- The zero offsets of the whole-shape rectangles, as a constant function. -/
theorem hz0 : (![0, 0] : Fin 2 → Nat) = fun _ => 0 := funext fun a => by fin_cases a <;> rfl

/-- The one whole-rectangle store of the payload of the two whole-rectangle loads IS the payload of the two blocks. -/
theorem out0_2_eq (x0 x1 : Vec F S1024x128 .f32) : out0_2 x0 x1 = k0_pay1 x0 x1 := by
  unfold out0_2
  rw [View.canon_unit_zero hz0]
  simp only [View.ld_unit_zero (S := S1024x128) hz0]

/-- The printed index maps, decided over the one grid point: every window's block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Input window 0's block at the one point is its whole array: the block is the array, read through the identity. -/
theorem iblk0_0_eq (c : Dev nD) (t : Fin cfg0.N) :
    (iblk0 V c 0 t : Vec F S1024x128 .f32) = (V c main_v28 : Vec F S1024x128 .f32) := by
  obtain ⟨e0, e1, -, -, -, -⟩ := idx_facts0 t
  funext j
  show V c main_v28 (((cfg0.win 0).blk t).view.emb j) = V c main_v28 j
  have h : ((cfg0.win 0).blk t).view.emb j = j := by
    funext a; apply Fin.ext
    match a with
    | ⟨0, _⟩ => show win0_0.index t (0 : Fin 2) * 1024 + 1 * (j 0).val = (j 0).val; omega
    | ⟨1, _⟩ => show win0_0.index t (1 : Fin 2) * 128 + 1 * (j 1).val = (j 1).val; omega
  rw [h]

/-- The same for input window 1. -/
theorem iblk0_1_eq (c : Dev nD) (t : Fin cfg0.N) :
    (iblk0 V c 1 t : Vec F S1024x128 .f32) = (V c main_v29 : Vec F S1024x128 .f32) := by
  obtain ⟨-, -, e0, e1, -, -⟩ := idx_facts0 t
  funext j
  show V c main_v29 (((cfg0.win 1).blk t).view.emb j) = V c main_v29 j
  have h : ((cfg0.win 1).blk t).view.emb j = j := by
    funext a; apply Fin.ext
    match a with
    | ⟨0, _⟩ => show win0_1.index t (0 : Fin 2) * 1024 + 1 * (j 0).val = (j 0).val; omega
    | ⟨1, _⟩ => show win0_1.index t (1 : Fin 2) * 128 + 1 * (j 1).val = (j 1).val; omega
  rw [h]

/-- The output array the region leaves, as one function of the two input arrays as the region finds them. -/
abbrev G0_2 (c : Dev nD) : Vec F S1x1 .f32 := k0_pay1 (V c main_v28) (V c main_v29)

/-- What the one point writes back is the one block of `G0_2`. -/
theorem flushed0_2_eq (c : Dev nD) (t : Fin cfg0.N) :
    (dat0 V c).flushed 2 t = ((cfg0.win 2).blk t).view.read (Elt F) (G0_2 V c) := by
  show (cfg0.win 2).cut (grid0.coords t) ((dat0 V c).after 2 t) = _
  rw [after0_2, out0_2_eq, iblk0_0_eq, iblk0_1_eq]
  obtain ⟨-, -, -, -, e0, e1⟩ := idx_facts0 t
  funext j
  show G0_2 V c j = G0_2 V c (((cfg0.win 2).blk t).view.emb j)
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 1 + 1 * (j 1).val = (j 1).val; omega
  rw [h]

/-- An index of the output array is in point `t`'s block iff each coordinate is in the block's range on its axis. -/
theorem mem_blk0_2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v30).slice (win0_2.rect t)).set ↔ _
  rw [View.set_slice_whole, Rect.mem_set_unit]
  exact Iff.rfl

/-- The one point's block covers the whole output array. -/
theorem cover_arr0_2 (i : S1x1.Idx) :
    ∃ t : Fin cfg0.N, (cfg0.win 2).flush t = true ∧ i ∈ ((cfg0.win 2).blk t).view.set := by
  refine ⟨t0_0, flush0_2 t0_0, ?_⟩
  obtain ⟨-, -, -, -, e0, e1⟩ := idx_facts0 t0_0
  rw [mem_blk0_2]
  intro a
  match a with
  | ⟨0, _⟩ =>
    show win0_2.index t0_0 (0 : Fin 2) * 1 ≤ (i 0).val ∧ (i 0).val < win0_2.index t0_0 (0 : Fin 2) * 1 + 1
    have hi : (i 0).val < 1 := (i 0).isLt
    omega
  | ⟨1, _⟩ =>
    show win0_2.index t0_0 (1 : Fin 2) * 1 ≤ (i 1).val ∧ (i 1).val < win0_2.index t0_0 (1 : Fin 2) * 1 + 1
    have hi : (i 1).val < 1 := (i 1).isLt
    omega

/-- THE OUTPUT ARRAY after the region: the payload of the two input arrays, whole. -/
theorem arrAt0_2 (c : Dev nD) : (dat0 V c).arrAt 2 cfg0.N = G0_2 V c :=
  (dat0 V c).arrAt_eq_of_cover 2 (G0_2 V c) (fun t _ => flushed0_2_eq V c t) (cover_arr0_2)

/-- The same, index by index. -/
theorem arrAt0_2_apply (c : Dev nD) (j : S1x1.Idx) :
    (dat0 V c).arrAt 2 cfg0.N j = k0_pay1 (V c main_v28) (V c main_v29) j :=
  congrFun (arrAt0_2 V c) j

end Cert.Kernel.Hand

end
-- ==== Proof.BitsRegion1Runs.lean ====
/-
  The second pallas_call's body, run once per control case.
  The margin kernel's grid is 2 × 32 points; its coordinate j = t mod 32 decides two branches: at j = 0 the carried
  accumulator (a 1 × 2048 scratch) is reset to zero before this point's column sums are added to it; at j = 31 the
  accumulator's lane sum is broadcast into the 8 × 128 output block. So a point is in one of three cases:
  A (j = 0: reset, add, no output), B (0 < j < 31: add, no output), C (j = 31: add, output).
  Here: the two conditions in closed form over the grid, where the output window is idle, and the body's triple in each
  case, with the pieces the body's stores leave in the scratch and in the output buffer as the run's witness.
-/
import proofs.«179181_j83227876262472_2_alg».proof.Proof.Gen.Kernel.Launch
import proofs.«179181_j83227876262472_2_alg».proof.Proof.Gen.Kernel.Skeleton
import proofs.«179181_j83227876262472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (reset the accumulator): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)

/-- The second branch (write the output block): the second grid coordinate is 31. -/
abbrev cond1_1 (i : grid1.Coords) : Prop := k1_cond2 i = 1#1
/-- It holds at the points ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In cases A and B nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output block is stored whole. -/
theorem liveAt1_3_C : ∀ t : Fin cfg1.N, ¬cond1_0 (grid1.coords t) → cond1_1 (grid1.coords t) → cfg1.idle 3 (grid1.coords t) = false := by decide +kernel

/-! ## The staging and scratch memrefs -/

abbrev VO1_3 : View sig .tc .vmem S8x128 .f32 := (Memref.whole cc1_stg3_0 : Memref sig .tc .vmem S8x128 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
/-- The accumulator the kernel carries between points. -/
abbrev scM1_0 : Memref sig .tc .vmem S1x2048 .f32 := Memref.whole cc1_scratch0
abbrev VS1_0 : View sig .tc .vmem S1x2048 .f32 := scM1_0.view

/-! ## The body's triple, case by case -/

set_option maxHeartbeats 4000000 in
/-- CASE A (j = 0): the accumulator, at anything, is reset and then holds this point's column sums; the output buffer is
    handed back as found. -/
noncomputable def kernelRun1_A (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : cond1_0 i) (hc1 : ¬cond1_1 i)
    (x0 : Vec F S1024x1 .f32) (x1 : Vec F S1x2048 .f32) (x2 : Vec F S1x2048 .f32) :
    Σ' (L3 : List (View.Piece (Elt F) S8x128 .f32)), { LS0 : List (View.Piece (Elt F) S1x2048 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨[], ?_, fun xi3 E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B (0 < j < 31): the accumulator, at what the point before left, gains this point's column sums; the output
    buffer is handed back as found. -/
noncomputable def kernelRun1_B (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : ¬cond1_0 i) (hc1 : ¬cond1_1 i)
    (x0 : Vec F S1024x1 .f32) (x1 : Vec F S1x2048 .f32) (x2 : Vec F S1x2048 .f32) (xs0 : Vec F S1x2048 .f32) :
    Σ' (L3 : List (View.Piece (Elt F) S8x128 .f32)), { LS0 : List (View.Piece (Elt F) S1x2048 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨[], ?_, fun xi3 E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C (j = 31): the accumulator gains this point's column sums, and the output buffer, at anything, is stored whole
    with the accumulator's lane sum. -/
noncomputable def kernelRun1_C (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : ¬cond1_0 i) (hc1 : cond1_1 i)
    (x0 : Vec F S1024x1 .f32) (x1 : Vec F S1x2048 .f32) (x2 : Vec F S1x2048 .f32) (xs0 : Vec F S1x2048 .f32) :
    Σ' (L3 : List (View.Piece (Elt F) S8x128 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨?_, ?_, fun E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BitsRegion1.lean ====
/-
  The second pallas_call, point by point.
  The accumulator after point n is defined by recursion on n: at a point with j = 0 it is this point's column sums added to
  zero, elsewhere this point's column sums added to what the point before left. The output block is stored only at j = 31,
  with the accumulator's lane sum broadcast; at the other points its buffer is left as found and not written back.
  The region's invariant between points holds the accumulator at exactly that value (before the first point: at anything),
  beside the other scoped buffers and the generator register, which the body never touches.
  From these: the proof data of the pipeline at any entry contents V, and the body obligation at every point.
-/
import proofs.«179181_j83227876262472_2_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each case's run at a point of the grid -/

/-- Case A's run at point t (j = 0). -/
def runA (c : Dev nD) (t : Fin cfg1.N) (h0 : t.val % 32 = 0) (h1 : ¬t.val % 32 = 31) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)
/-- Case B's run at point t (0 < j < 31), the accumulator entering at xs. -/
def runB (c : Dev nD) (t : Fin cfg1.N) (h0 : ¬t.val % 32 = 0) (h1 : ¬t.val % 32 = 31) (xs : Vec F S1x2048 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs
/-- Case C's run at point t (j = 31), the accumulator entering at xs. -/
def runC (c : Dev nD) (t : Fin cfg1.N) (h0 : ¬t.val % 32 = 0) (h1 : t.val % 32 = 31) (xs : Vec F S1x2048 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs

/-- In every case the accumulator's pieces tile it. -/
theorem scoverA (c : Dev nD) (t : Fin cfg1.N) (h0 : t.val % 32 = 0) (h1 : ¬t.val % 32 = 31) (y : S1x2048.Idx) :
    ∃ pc ∈ (runA V c t h0 h1).2.1, y ∈ pc.1.set :=
  View.cover_of_tiledL (runA V c t h0 h1).2.1 S1x2048.size (by unfold runA; sl_kernel_rfl) y
theorem scoverB (c : Dev nD) (t : Fin cfg1.N) (h0 : ¬t.val % 32 = 0) (h1 : ¬t.val % 32 = 31) (xs : Vec F S1x2048 .f32) (y : S1x2048.Idx) :
    ∃ pc ∈ (runB V c t h0 h1 xs).2.1, y ∈ pc.1.set :=
  View.cover_of_tiledL (runB V c t h0 h1 xs).2.1 S1x2048.size (by unfold runB; sl_kernel_rfl) y
theorem scoverC (c : Dev nD) (t : Fin cfg1.N) (h0 : ¬t.val % 32 = 0) (h1 : t.val % 32 = 31) (xs : Vec F S1x2048 .f32) (y : S1x2048.Idx) :
    ∃ pc ∈ (runC V c t h0 h1 xs).2.1, y ∈ pc.1.set :=
  View.cover_of_tiledL (runC V c t h0 h1 xs).2.1 S1x2048.size (by unfold runC; sl_kernel_rfl) y
/-- In case C the output's pieces tile its block. -/
theorem coverC (c : Dev nD) (t : Fin cfg1.N) (h0 : ¬t.val % 32 = 0) (h1 : t.val % 32 = 31) (xs : Vec F S1x2048 .f32) (y : S8x128.Idx) :
    ∃ pc ∈ (runC V c t h0 h1 xs).1, y ∈ pc.1.set :=
  View.cover_of_tiledL (runC V c t h0 h1 xs).1 S8x128.size (by unfold runC; sl_kernel_rfl) y

/-- What each case leaves in the accumulator: its pieces read back. -/
def soutA (c : Dev nD) (t : Fin cfg1.N) (h0 : t.val % 32 = 0) (h1 : ¬t.val % 32 = 31) : Vec F S1x2048 .f32 :=
  VS1_0.read (Elt F) (VS1_0.writes (Elt F) VS1_0.junk (runA V c t h0 h1).2.1)
def soutB (c : Dev nD) (t : Fin cfg1.N) (h0 : ¬t.val % 32 = 0) (h1 : ¬t.val % 32 = 31) (xs : Vec F S1x2048 .f32) : Vec F S1x2048 .f32 :=
  VS1_0.read (Elt F) (VS1_0.writes (Elt F) VS1_0.junk (runB V c t h0 h1 xs).2.1)
def soutC (c : Dev nD) (t : Fin cfg1.N) (h0 : ¬t.val % 32 = 0) (h1 : t.val % 32 = 31) (xs : Vec F S1x2048 .f32) : Vec F S1x2048 .f32 :=
  VS1_0.read (Elt F) (VS1_0.writes (Elt F) VS1_0.junk (runC V c t h0 h1 xs).2.1)
/-- What case C leaves in the output's staging buffer. -/
def outC (c : Dev nD) (t : Fin cfg1.N) (h0 : ¬t.val % 32 = 0) (h1 : t.val % 32 = 31) (xs : Vec F S1x2048 .f32) : Vec F S8x128 .f32 :=
  VO1_3.read (Elt F) (VO1_3.writes (Elt F) VO1_3.junk (runC V c t h0 h1 xs).1)
/-- Cases A and B store nothing into the output: a placeholder nothing consults (the window is idle there). -/
def outIdle : Vec F S8x128 .f32 := VO1_3.read (Elt F) (VO1_3.writes (Elt F) VO1_3.junk [])

/-! ## What the output buffer and the accumulator hold after each point -/

/-- THE ACCUMULATION: (output buffer, accumulator) after the body at position n. -/
def outsAt1 (c : Dev nD) : (n : ℕ) → n < cfg1.N → Vec F S8x128 .f32 × Vec F S1x2048 .f32
  | 0, hn => (outIdle, soutA V c ⟨0, hn⟩ (Nat.zero_mod _) (by show ¬ 0 % 32 = 31; decide))
  | n + 1, hn =>
    if h0 : (n + 1) % 32 = 0 then
      if h1 : (n + 1) % 32 = 31 then
        False.elim (by omega)
      else
        (outIdle, soutA V c ⟨n + 1, hn⟩ h0 h1)
    else
      if h1 : (n + 1) % 32 = 31 then
        (outC V c ⟨n + 1, hn⟩ h0 h1 (outsAt1 c n (Nat.lt_of_succ_lt hn)).2, soutC V c ⟨n + 1, hn⟩ h0 h1 (outsAt1 c n (Nat.lt_of_succ_lt hn)).2)
      else
        (outIdle, soutB V c ⟨n + 1, hn⟩ h0 h1 (outsAt1 c n (Nat.lt_of_succ_lt hn)).2)

theorem outsAt1_A (c : Dev nD) (t : Fin cfg1.N) (h0 : t.val % 32 = 0) (h1 : ¬t.val % 32 = 31) :
    outsAt1 V c t.val t.isLt = (outIdle, soutA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (outIdle, soutB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (outC V c t h0 h1 (outsAt1 V c (t.val - 1) (Nat.lt_of_le_of_lt (Nat.sub_le _ _) t.isLt)).2, soutC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class's invariant with the scoped buffers listed: the first call's three staging buffers and the accumulator, each at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- Before position n: at the start anything; afterwards the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the accumulator
    at what the point before left (at anything at the very first point and wherever it is reset), and takes it back at this
    point's value; the output buffer is handed back untouched where the case stores nothing into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · have h1 : ¬t.val % 32 = 31 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold soutA; (try dsimp only)
    by_cases hz : t.val = 0
    · rw [PhiS_castSucc V c t, PhiS_zero V c _ _ hz, PhiA1_eq]
      iintro ⟨⟨⟨HA, HB, HC, HS0⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outC soutC; (try dsimp only)
      rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold soutB; (try dsimp only)
      rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HS0⟩, Hg⟩
  isplitl [HA HB HC HS0]
  · isplitl [HA]; · iexact HA
    isplitl [HB]; · iexact HB
    isplitl [HC]; · iexact HC
    iexists _; iexact HS0
  iexact Hg

end Cert.Kernel.Hand

end
-- ==== Proof.BitsRun.lean ====
/-
  The program's run, from the launch to the return.
  @main is five segments: host operations, the cross-entropy kernel's region, host operations, the margin kernel's region,
  host operations. The contents of the TensorCore's unscoped buffers at each segment boundary are a fold from the launch
  memory: a host stretch applies its operations; a region overwrites the arrays of its windows with what its write-backs leave
  and keeps every other buffer. Every weakly fair execution terminates, and every final memory holds every unscoped buffer at
  the last boundary's contents: the two argument arrays as launched (nothing writes them), and the result.
-/
import proofs.«179181_j83227876262472_2_alg».proof.Proof.Gen.Kernel.Regions
import proofs.«179181_j83227876262472_2_alg».proof.Proof.BitsRegion0
import proofs.«179181_j83227876262472_2_alg».proof.Proof.BitsRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ### The arguments end as launched: no host operation writes one, no region has one among its windows' arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the contents
    after it; its arrays are split out of the unscoped buffers and put back at what the pipeline leaves in them. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays are split out of the unscoped buffers and put back at what the pipeline leaves in them. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

/-- The run with the result named: the result buffer ends at the last boundary's contents. -/
theorem run_result : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v43 (by decide)),
     (h c _ (mem_uc main_arg0 (by decide))).trans (W5_main_arg0 m ρ c),
     (h c _ (mem_uc main_arg1 (by decide))).trans (W5_main_arg1 m ρ c)⟩) (run_all m ρ)

end Cert.Kernel.Hand

end
-- ==== Proof.IdealRegion0.lean ====
/- The first TensorCore region of the program (custom_call 0, one grid point): the body's triple, the
   pipeline's proof data at the region-entry contents, the body obligation, and the closed form of the
   output array the region leaves. Everything is stated at any float instance and at a parameter `V`, the
   TensorCore's buffer contents when the region is entered. -/
import proofs.«179181_j83227876262472_2_alg».proof.Proof.Gen.KernelIdeal.Launch
import proofs.«179181_j83227876262472_2_alg».proof.Proof.Gen.KernelIdeal.Skeleton
import proofs.«179181_j83227876262472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of long axes: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024x128 rectangle: what each input load reads. -/
abbrev r0_in : Rect S1024x128 := Rect.unit (s := S1024x128) ![0, 0] S1024x128.size inb_S1024x128_S1024x128_0_0
/-- The whole 1x1 rectangle: what the one store writes. -/
abbrev r0_out : Rect S1x1 := Rect.unit (s := S1x1) ![0, 0] S1x1.size inb_S1x1_S1x1_0_0

/-! ## What the body leaves in the output window's buffer -/

/-- Window 2's staging buffer after the body, from the two input blocks: its one store as a piece. -/
def out0_2 (x0 x1 : Vec F S1024x128 .f32) : Vec F S1x1 .f32 :=
  View.canon [⟨r0_out, k0_pay1 (View.ld x0 r0_in) (View.ld x1 r0_in)⟩]

/-- The one store tiles the buffer, so it covers it. -/
theorem cover0_2 (p0 : Vec F S1x1 .f32) (y : S1x1.Idx) :
    ∃ pc ∈ ([⟨r0_out, p0⟩] : List (View.Piece (Elt F) S1x1 .f32)), y ∈ pc.1.set :=
  View.cover_of_tiled [⟨r0_out, p0⟩] S1x1.size (by rfl) y

/-! ## The body's triple -/

set_option maxHeartbeats 1000000 in
/-- The kernel body on whole staging memrefs, the inputs' at read contents `x0`, `x1` and the output's at anything,
    runs to the continuation holding the inputs' as they were and the output's at `out0_2` of the inputs. -/
theorem sound_kernel0 (c : Dev nD) (E : Set ℕ) (i : grid0.Coords) (arg1 : Memref sig .tc .vmem S1024x128 .f32) (harg1 : arg1.IsWhole) (arg2 : Memref sig .tc .vmem S1024x128 .f32) (harg2 : arg2.IsWhole) (arg3 : Memref sig .tc .vmem S1x1 .f32) (harg3 : arg3.IsWhole)
    (x0 : Vec F S1024x128 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__ce_kernel i arg1 harg1 arg2 harg2 arg3 harg3) K := by
  simp only [cc0__ce_kernel_eq_skeleton]; unfold cc0__ce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the class's
    invariant (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Closed form: the output array as one function of the two input arrays -/

/-- The zero offsets of the whole-shape rectangles, as a constant function. -/
theorem hz0 : (![0, 0] : Fin 2 → Nat) = fun _ => 0 := funext fun a => by fin_cases a <;> rfl

/-- The one whole-rectangle store of the payload of the two whole-rectangle loads IS the payload of the two blocks. -/
theorem out0_2_eq (x0 x1 : Vec F S1024x128 .f32) : out0_2 x0 x1 = k0_pay1 x0 x1 := by
  unfold out0_2
  rw [View.canon_unit_zero hz0]
  simp only [View.ld_unit_zero (S := S1024x128) hz0]

/-- The printed index maps, decided over the one grid point: every window's block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Input window 0's block at the one point is its whole array: the block is the array, read through the identity. -/
theorem iblk0_0_eq (c : Dev nD) (t : Fin cfg0.N) :
    (iblk0 V c 0 t : Vec F S1024x128 .f32) = (V c main_v28 : Vec F S1024x128 .f32) := by
  obtain ⟨e0, e1, -, -, -, -⟩ := idx_facts0 t
  funext j
  show V c main_v28 (((cfg0.win 0).blk t).view.emb j) = V c main_v28 j
  have h : ((cfg0.win 0).blk t).view.emb j = j := by
    funext a; apply Fin.ext
    match a with
    | ⟨0, _⟩ => show win0_0.index t (0 : Fin 2) * 1024 + 1 * (j 0).val = (j 0).val; omega
    | ⟨1, _⟩ => show win0_0.index t (1 : Fin 2) * 128 + 1 * (j 1).val = (j 1).val; omega
  rw [h]

/-- The same for input window 1. -/
theorem iblk0_1_eq (c : Dev nD) (t : Fin cfg0.N) :
    (iblk0 V c 1 t : Vec F S1024x128 .f32) = (V c main_v29 : Vec F S1024x128 .f32) := by
  obtain ⟨-, -, e0, e1, -, -⟩ := idx_facts0 t
  funext j
  show V c main_v29 (((cfg0.win 1).blk t).view.emb j) = V c main_v29 j
  have h : ((cfg0.win 1).blk t).view.emb j = j := by
    funext a; apply Fin.ext
    match a with
    | ⟨0, _⟩ => show win0_1.index t (0 : Fin 2) * 1024 + 1 * (j 0).val = (j 0).val; omega
    | ⟨1, _⟩ => show win0_1.index t (1 : Fin 2) * 128 + 1 * (j 1).val = (j 1).val; omega
  rw [h]

/-- The output array the region leaves, as one function of the two input arrays as the region finds them. -/
abbrev G0_2 (c : Dev nD) : Vec F S1x1 .f32 := k0_pay1 (V c main_v28) (V c main_v29)

/-- What the one point writes back is the one block of `G0_2`. -/
theorem flushed0_2_eq (c : Dev nD) (t : Fin cfg0.N) :
    (dat0 V c).flushed 2 t = ((cfg0.win 2).blk t).view.read (Elt F) (G0_2 V c) := by
  show (cfg0.win 2).cut (grid0.coords t) ((dat0 V c).after 2 t) = _
  rw [after0_2, out0_2_eq, iblk0_0_eq, iblk0_1_eq]
  obtain ⟨-, -, -, -, e0, e1⟩ := idx_facts0 t
  funext j
  show G0_2 V c j = G0_2 V c (((cfg0.win 2).blk t).view.emb j)
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 1 + 1 * (j 1).val = (j 1).val; omega
  rw [h]

/-- An index of the output array is in point `t`'s block iff each coordinate is in the block's range on its axis. -/
theorem mem_blk0_2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v30).slice (win0_2.rect t)).set ↔ _
  rw [View.set_slice_whole, Rect.mem_set_unit]
  exact Iff.rfl

/-- The one point's block covers the whole output array. -/
theorem cover_arr0_2 (i : S1x1.Idx) :
    ∃ t : Fin cfg0.N, (cfg0.win 2).flush t = true ∧ i ∈ ((cfg0.win 2).blk t).view.set := by
  refine ⟨t0_0, flush0_2 t0_0, ?_⟩
  obtain ⟨-, -, -, -, e0, e1⟩ := idx_facts0 t0_0
  rw [mem_blk0_2]
  intro a
  match a with
  | ⟨0, _⟩ =>
    show win0_2.index t0_0 (0 : Fin 2) * 1 ≤ (i 0).val ∧ (i 0).val < win0_2.index t0_0 (0 : Fin 2) * 1 + 1
    have hi : (i 0).val < 1 := (i 0).isLt
    omega
  | ⟨1, _⟩ =>
    show win0_2.index t0_0 (1 : Fin 2) * 1 ≤ (i 1).val ∧ (i 1).val < win0_2.index t0_0 (1 : Fin 2) * 1 + 1
    have hi : (i 1).val < 1 := (i 1).isLt
    omega

/-- THE OUTPUT ARRAY after the region: the payload of the two input arrays, whole. -/
theorem arrAt0_2 (c : Dev nD) : (dat0 V c).arrAt 2 cfg0.N = G0_2 V c :=
  (dat0 V c).arrAt_eq_of_cover 2 (G0_2 V c) (fun t _ => flushed0_2_eq V c t) (cover_arr0_2)

/-- The same, index by index. -/
theorem arrAt0_2_apply (c : Dev nD) (j : S1x1.Idx) :
    (dat0 V c).arrAt 2 cfg0.N j = k0_pay1 (V c main_v28) (V c main_v29) j :=
  congrFun (arrAt0_2 V c) j

end Cert.KernelIdeal.Hand

end
-- ==== Proof.IdealRegion1Runs.lean ====
/-
  The second pallas_call's body, run once per control case.
  The margin kernel's grid is 2 × 32 points; its coordinate j = t mod 32 decides two branches: at j = 0 the carried
  accumulator (a 1 × 2048 scratch) is reset to zero before this point's column sums are added to it; at j = 31 the
  accumulator's lane sum is broadcast into the 8 × 128 output block. So a point is in one of three cases:
  A (j = 0: reset, add, no output), B (0 < j < 31: add, no output), C (j = 31: add, output).
  Here: the two conditions in closed form over the grid, where the output window is idle, and the body's triple in each
  case, with the pieces the body's stores leave in the scratch and in the output buffer as the run's witness.
-/
import proofs.«179181_j83227876262472_2_alg».proof.Proof.Gen.KernelIdeal.Launch
import proofs.«179181_j83227876262472_2_alg».proof.Proof.Gen.KernelIdeal.Skeleton
import proofs.«179181_j83227876262472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first branch (reset the accumulator): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)

/-- The second branch (write the output block): the second grid coordinate is 31. -/
abbrev cond1_1 (i : grid1.Coords) : Prop := k1_cond2 i = 1#1
/-- It holds at the points ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In cases A and B nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output block is stored whole. -/
theorem liveAt1_3_C : ∀ t : Fin cfg1.N, ¬cond1_0 (grid1.coords t) → cond1_1 (grid1.coords t) → cfg1.idle 3 (grid1.coords t) = false := by decide +kernel

/-! ## The staging and scratch memrefs -/

abbrev VO1_3 : View sig .tc .vmem S8x128 .f32 := (Memref.whole cc1_stg3_0 : Memref sig .tc .vmem S8x128 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
/-- The accumulator the kernel carries between points. -/
abbrev scM1_0 : Memref sig .tc .vmem S1x2048 .f32 := Memref.whole cc1_scratch0
abbrev VS1_0 : View sig .tc .vmem S1x2048 .f32 := scM1_0.view

/-! ## The body's triple, case by case -/

set_option maxHeartbeats 4000000 in
/-- CASE A (j = 0): the accumulator, at anything, is reset and then holds this point's column sums; the output buffer is
    handed back as found. -/
noncomputable def kernelRun1_A (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : cond1_0 i) (hc1 : ¬cond1_1 i)
    (x0 : Vec F S1024x1 .f32) (x1 : Vec F S1x2048 .f32) (x2 : Vec F S1x2048 .f32) :
    Σ' (L3 : List (View.Piece (Elt F) S8x128 .f32)), { LS0 : List (View.Piece (Elt F) S1x2048 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨[], ?_, fun xi3 E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE B (0 < j < 31): the accumulator, at what the point before left, gains this point's column sums; the output
    buffer is handed back as found. -/
noncomputable def kernelRun1_B (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : ¬cond1_0 i) (hc1 : ¬cond1_1 i)
    (x0 : Vec F S1024x1 .f32) (x1 : Vec F S1x2048 .f32) (x2 : Vec F S1x2048 .f32) (xs0 : Vec F S1x2048 .f32) :
    Σ' (L3 : List (View.Piece (Elt F) S8x128 .f32)), { LS0 : List (View.Piece (Elt F) S1x2048 .f32) //
      ∀ (xi3 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨[], ?_, fun xi3 E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- CASE C (j = 31): the accumulator gains this point's column sums, and the output buffer, at anything, is stored whole
    with the accumulator's lane sum. -/
noncomputable def kernelRun1_C (c : Dev nD) (i : grid1.Coords) (arg2 : Memref sig .tc .vmem S1024x1 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S8x128 .f32) (harg5 : arg5.IsWhole) (arg6 : Memref sig .tc .vmem S1x2048 .f32) (harg6 : arg6.IsWhole) (hc0 : ¬cond1_0 i) (hc1 : cond1_1 i)
    (x0 : Vec F S1024x1 .f32) (x1 : Vec F S1x2048 .f32) (x2 : Vec F S1x2048 .f32) (xs0 : Vec F S1x2048 .f32) :
    Σ' (L3 : List (View.Piece (Elt F) S8x128 .f32)), { LS0 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__margin_kernel i arg2 harg2 arg3 harg3 arg4 harg4 arg5 harg5 arg6 harg6) K } := by
  refine ⟨?_, ?_, fun E K => ?run⟩
  case run =>
    simp only [cc1__margin_kernel_eq_skeleton]; unfold cc1__margin_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.IdealRegion1.lean ====
/-
  The second pallas_call, point by point.
  The accumulator after point n is defined by recursion on n: at a point with j = 0 it is this point's column sums added to
  zero, elsewhere this point's column sums added to what the point before left. The output block is stored only at j = 31,
  with the accumulator's lane sum broadcast; at the other points its buffer is left as found and not written back.
  The region's invariant between points holds the accumulator at exactly that value (before the first point: at anything),
  beside the other scoped buffers and the generator register, which the body never touches.
  From these: the proof data of the pipeline at any entry contents V, and the body obligation at every point.
-/
import proofs.«179181_j83227876262472_2_alg».proof.Proof.IdealRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each case's run at a point of the grid -/

/-- Case A's run at point t (j = 0). -/
def runA (c : Dev nD) (t : Fin cfg1.N) (h0 : t.val % 32 = 0) (h1 : ¬t.val % 32 = 31) :=
  kernelRun1_A (F := F) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)
/-- Case B's run at point t (0 < j < 31), the accumulator entering at xs. -/
def runB (c : Dev nD) (t : Fin cfg1.N) (h0 : ¬t.val % 32 = 0) (h1 : ¬t.val % 32 = 31) (xs : Vec F S1x2048 .f32) :=
  kernelRun1_B (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs
/-- Case C's run at point t (j = 31), the accumulator entering at xs. -/
def runC (c : Dev nD) (t : Fin cfg1.N) (h0 : ¬t.val % 32 = 0) (h1 : t.val % 32 = 31) (xs : Vec F S1x2048 .f32) :=
  kernelRun1_C (F := F) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs

/-- In every case the accumulator's pieces tile it. -/
theorem scoverA (c : Dev nD) (t : Fin cfg1.N) (h0 : t.val % 32 = 0) (h1 : ¬t.val % 32 = 31) (y : S1x2048.Idx) :
    ∃ pc ∈ (runA V c t h0 h1).2.1, y ∈ pc.1.set :=
  View.cover_of_tiledL (runA V c t h0 h1).2.1 S1x2048.size (by unfold runA; sl_kernel_rfl) y
theorem scoverB (c : Dev nD) (t : Fin cfg1.N) (h0 : ¬t.val % 32 = 0) (h1 : ¬t.val % 32 = 31) (xs : Vec F S1x2048 .f32) (y : S1x2048.Idx) :
    ∃ pc ∈ (runB V c t h0 h1 xs).2.1, y ∈ pc.1.set :=
  View.cover_of_tiledL (runB V c t h0 h1 xs).2.1 S1x2048.size (by unfold runB; sl_kernel_rfl) y
theorem scoverC (c : Dev nD) (t : Fin cfg1.N) (h0 : ¬t.val % 32 = 0) (h1 : t.val % 32 = 31) (xs : Vec F S1x2048 .f32) (y : S1x2048.Idx) :
    ∃ pc ∈ (runC V c t h0 h1 xs).2.1, y ∈ pc.1.set :=
  View.cover_of_tiledL (runC V c t h0 h1 xs).2.1 S1x2048.size (by unfold runC; sl_kernel_rfl) y
/-- In case C the output's pieces tile its block. -/
theorem coverC (c : Dev nD) (t : Fin cfg1.N) (h0 : ¬t.val % 32 = 0) (h1 : t.val % 32 = 31) (xs : Vec F S1x2048 .f32) (y : S8x128.Idx) :
    ∃ pc ∈ (runC V c t h0 h1 xs).1, y ∈ pc.1.set :=
  View.cover_of_tiledL (runC V c t h0 h1 xs).1 S8x128.size (by unfold runC; sl_kernel_rfl) y

/-- What each case leaves in the accumulator: its pieces read back. -/
def soutA (c : Dev nD) (t : Fin cfg1.N) (h0 : t.val % 32 = 0) (h1 : ¬t.val % 32 = 31) : Vec F S1x2048 .f32 :=
  VS1_0.read (Elt F) (VS1_0.writes (Elt F) VS1_0.junk (runA V c t h0 h1).2.1)
def soutB (c : Dev nD) (t : Fin cfg1.N) (h0 : ¬t.val % 32 = 0) (h1 : ¬t.val % 32 = 31) (xs : Vec F S1x2048 .f32) : Vec F S1x2048 .f32 :=
  VS1_0.read (Elt F) (VS1_0.writes (Elt F) VS1_0.junk (runB V c t h0 h1 xs).2.1)
def soutC (c : Dev nD) (t : Fin cfg1.N) (h0 : ¬t.val % 32 = 0) (h1 : t.val % 32 = 31) (xs : Vec F S1x2048 .f32) : Vec F S1x2048 .f32 :=
  VS1_0.read (Elt F) (VS1_0.writes (Elt F) VS1_0.junk (runC V c t h0 h1 xs).2.1)
/-- What case C leaves in the output's staging buffer. -/
def outC (c : Dev nD) (t : Fin cfg1.N) (h0 : ¬t.val % 32 = 0) (h1 : t.val % 32 = 31) (xs : Vec F S1x2048 .f32) : Vec F S8x128 .f32 :=
  VO1_3.read (Elt F) (VO1_3.writes (Elt F) VO1_3.junk (runC V c t h0 h1 xs).1)
/-- Cases A and B store nothing into the output: a placeholder nothing consults (the window is idle there). -/
def outIdle : Vec F S8x128 .f32 := VO1_3.read (Elt F) (VO1_3.writes (Elt F) VO1_3.junk [])

/-! ## What the output buffer and the accumulator hold after each point -/

/-- THE ACCUMULATION: (output buffer, accumulator) after the body at position n. -/
def outsAt1 (c : Dev nD) : (n : ℕ) → n < cfg1.N → Vec F S8x128 .f32 × Vec F S1x2048 .f32
  | 0, hn => (outIdle, soutA V c ⟨0, hn⟩ (Nat.zero_mod _) (by show ¬ 0 % 32 = 31; decide))
  | n + 1, hn =>
    if h0 : (n + 1) % 32 = 0 then
      if h1 : (n + 1) % 32 = 31 then
        False.elim (by omega)
      else
        (outIdle, soutA V c ⟨n + 1, hn⟩ h0 h1)
    else
      if h1 : (n + 1) % 32 = 31 then
        (outC V c ⟨n + 1, hn⟩ h0 h1 (outsAt1 c n (Nat.lt_of_succ_lt hn)).2, soutC V c ⟨n + 1, hn⟩ h0 h1 (outsAt1 c n (Nat.lt_of_succ_lt hn)).2)
      else
        (outIdle, soutB V c ⟨n + 1, hn⟩ h0 h1 (outsAt1 c n (Nat.lt_of_succ_lt hn)).2)

theorem outsAt1_A (c : Dev nD) (t : Fin cfg1.N) (h0 : t.val % 32 = 0) (h1 : ¬t.val % 32 = 31) :
    outsAt1 V c t.val t.isLt = (outIdle, soutA V c t h0 h1) := by
  obtain ⟨n, hn⟩ := t
  cases n with
  | zero => exact rfl
  | succ n => exact (dif_pos h0).trans ((dif_neg h1).trans rfl)

theorem outsAt1_B (c : Dev nD) (t : Fin cfg1.N) (h0 : ¬t.val % 32 = 0) (h1 : ¬t.val % 32 = 31) :
    outsAt1 V c t.val t.isLt = (outIdle, soutB V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 32 = 0) (h1 : t.val % 32 = 31) :
    outsAt1 V c t.val t.isLt = (outC V c t h0 h1 (outsAt1 V c (t.val - 1) (Nat.lt_of_le_of_lt (Nat.sub_le _ _) t.isLt)).2, soutC V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The class's invariant with the scoped buffers listed: the first call's three staging buffers and the accumulator, each at
    some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- Before position n: at the start anything; afterwards the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c n hn).2)) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which case the point is in; the invariant hands the body the accumulator
    at what the point before left (at anything at the very first point and wherever it is reset), and takes it back at this
    point's value; the output buffer is handed back untouched where the case stores nothing into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 32 = 0
  · have h1 : ¬t.val % 32 = 31 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold soutA; (try dsimp only)
    by_cases hz : t.val = 0
    · rw [PhiS_castSucc V c t, PhiS_zero V c _ _ hz, PhiA1_eq]
      iintro ⟨⟨⟨HA, HB, HC, HS0⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runA V c t h0 h1).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverA V c t h0 h1)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 32 = 31
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold outC soutC; (try dsimp only)
      rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runC V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverC V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC V c t h0 h1 _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold soutB; (try dsimp only)
      rw [PhiS_castSucc V c t, PhiS_pos V c _ _ hz]
      iintro ⟨⟨⟨HA, HB, HC, HS0⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HA HB HC HS0 Hg]
      · isplitl [HA HB HC HS0]
        · isplitl [HA]; · iexact HA
          isplitl [HB]; · iexact HB
          isplitl [HC]; · iexact HC
          unfold owns; iexists _; isplitr
          swap; · iexact HS0
          ipureintro; exact View.read_writes_of_cover _ _ _ _ _ (scoverB V c t h0 h1 _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's value is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HA, HB, HC, HS0⟩, Hg⟩
  isplitl [HA HB HC HS0]
  · isplitl [HA]; · iexact HA
    isplitl [HB]; · iexact HB
    isplitl [HC]; · iexact HC
    iexists _; iexact HS0
  iexact Hg

end Cert.KernelIdeal.Hand

end
-- ==== Proof.IdealRun.lean ====
/-
  The program's run, from the launch to the return.
  @main is five segments: host operations, the cross-entropy kernel's region, host operations, the margin kernel's region,
  host operations. The contents of the TensorCore's unscoped buffers at each segment boundary are a fold from the launch
  memory: a host stretch applies its operations; a region overwrites the arrays of its windows with what its write-backs leave
  and keeps every other buffer. Every weakly fair execution terminates, and every final memory holds every unscoped buffer at
  the last boundary's contents: the two argument arrays as launched (nothing writes them), and the result.
-/
import proofs.«179181_j83227876262472_2_alg».proof.Proof.Gen.KernelIdeal.Regions
import proofs.«179181_j83227876262472_2_alg».proof.Proof.IdealRegion0
import proofs.«179181_j83227876262472_2_alg».proof.Proof.IdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: what the program returns with. -/
abbrev W5 : Dev nD → Valuation τ sig (Elt F) := fun c => StableHlo.after hostOps2 (W4 m ρ c)

/-! ### The arguments end as launched: no host operation writes one, no region has one among its windows' arrays -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (r := main_arg0) (by decide)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (r := main_arg1) (by decide)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the contents
    after it; its arrays are split out of the unscoped buffers and put back at what the pipeline leaves in them. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays are split out of the unscoped buffers and put back at what the pipeline leaves in them. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

/-- The run with the result named: the result buffer ends at the last boundary's contents. -/
theorem run_result : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v43 (by decide)),
     (h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.IdealHost.lean ====
/-
  The host operations around the two kernels, read back.
  Before the first kernel the host computes, from the positions, the soft targets (a constant with 0.9/1024 scattered in,
  divided by its sum), the mask (ones with zero scattered in) and the gathered ground-truth scores, and reshapes the scores and
  the soft targets to 1024 rows of 128. Between the kernels it reshapes the first kernel's 1 × 1 result to a scalar, the scores
  and the mask to one row of 131072, and the gathered scores to one column of 1024. After the second kernel it takes the entries
  (0, 0) and (8, 0) of the 16 × 128 result (one per half of the columns), adds them, divides by 133169152, halves, and adds the
  first kernel's scalar.
-/
import proofs.«179181_j83227876262472_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays both programs compute on the host, as functions of the two arguments -/

/-- The positions with the negative ones wrapped (idx < 0 ? idx + 131072 : idx). -/
def normIdx (idx : IVec S1024 32) : IVec S1024 32 :=
  select (cmpi .slt idx (broadcastInDim S1024 ![] bcast_S_S1024 (constantI S_ 32 0#32)))
    (addi idx (broadcastInDim S1024 ![] bcast_S_S1024 (constantI S_ 32 131072#32))) idx

/-- The unnormalised soft targets: 0.1/130048 everywhere, 0.9/1024 scattered at the positions. -/
def rawSoft (idx : IVec S1024 32) : FVec F S131072 .f32 :=
  Host.scatter scatter_S131072_S1024x1_S1024_n_0_0_1 (fun _ b => b)
    (broadcastInDim S131072 ![] bcast_S_S131072 (constant S_ .f32 0x354E69A0#32))
    (broadcastInDim S1024x1 ![0] bcast_S1024_S1024x1_0 (normIdx idx))
    (broadcastInDim S1024 ![] bcast_S_S1024 (constant S_ .f32 0x3A666666#32))

/-- The soft targets: the above divided by its sum. -/
def softK (idx : IVec S1024 32) : FVec F S131072 .f32 :=
  Host.divf (rawSoft idx)
    (broadcastInDim S131072 ![] bcast_S_S131072 (Host.reduceAdd (rawSoft idx) (constant S_ .f32 0x00000000#32) reducesTo_S131072_S_d0 h_S_))

/-- The mask: ones, zero scattered at the positions. -/
def maskK (idx : IVec S1024 32) : FVec F S131072 .f32 :=
  Host.scatter scatter_S131072_S1024x1_S1024_n_0_0_1 (fun _ b => b)
    (broadcastInDim S131072 ![] bcast_S_S131072 (constant S_ .f32 0x3F800000#32))
    (broadcastInDim S1024x1 ![0] bcast_S1024_S1024x1_0 (normIdx idx))
    (broadcastInDim S1024 ![] bcast_S_S1024 (constant S_ .f32 0x00000000#32))

/-- The scores gathered at the positions. -/
def gtK (x : FVec F S131072 .f32) (idx : IVec S1024 32) : FVec F S1024 .f32 :=
  Host.gather gather_S131072_S1024x1_S1024_n_0_n_n_0_1_1 x (broadcastInDim S1024x1 ![0] bcast_S1024_S1024x1_0 (normIdx idx))

variable (m : (ℓ : Loc nD τ sig) → Buf (Elt F) ℓ) (ρ : Dev nD → PrngReg)

/-! ## The first stretch -/

set_option maxHeartbeats 4000000 in
/-- The first kernel's first operand: the scores as 1024 rows of 128. -/
theorem W1_v28 (c : Dev nD) : W1 m ρ c (Proc.devRef .tc main_v28)
    = (shapeCast S1024x128 (m ((c : Thread nD τ).loc main_arg0)) shapeCasts_S131072_S1024x128 : FVec F S1024x128 .f32) := by
  show StableHlo.after hostOps0 (W0 m ρ c) (Proc.devRef .tc main_v28) = _
  after_results_simp <;> rfl

set_option maxHeartbeats 4000000 in
/-- Its second operand: the soft targets as 1024 rows of 128. -/
theorem W1_v29 (c : Dev nD) : W1 m ρ c (Proc.devRef .tc main_v29)
    = (shapeCast S1024x128 (softK (F := F) (m ((c : Thread nD τ).loc main_arg1))) shapeCasts_S131072_S1024x128 : FVec F S1024x128 .f32) := by
  show StableHlo.after hostOps0 (W0 m ρ c) (Proc.devRef .tc main_v29) = _
  after_results_simp <;> (try unfold softK rawSoft normIdx) <;> rfl

set_option maxHeartbeats 4000000 in
/-- The mask. -/
theorem W1_v20 (c : Dev nD) : W1 m ρ c (Proc.devRef .tc main_v20) = (maskK (F := F) (m ((c : Thread nD τ).loc main_arg1)) : FVec F S131072 .f32) := by
  show StableHlo.after hostOps0 (W0 m ρ c) (Proc.devRef .tc main_v20) = _
  after_results_simp <;> (try unfold maskK normIdx) <;> rfl

set_option maxHeartbeats 4000000 in
/-- The gathered scores. -/
theorem W1_v27 (c : Dev nD) : W1 m ρ c (Proc.devRef .tc main_v27)
    = (gtK (F := F) (m ((c : Thread nD τ).loc main_arg0)) (m ((c : Thread nD τ).loc main_arg1)) : FVec F S1024 .f32) := by
  show StableHlo.after hostOps0 (W0 m ρ c) (Proc.devRef .tc main_v27) = _
  after_results_simp <;> (try unfold gtK normIdx) <;> rfl

/-- The scores themselves are still the argument. -/
theorem W1_arg0 (c : Dev nD) : W1 m ρ c (Proc.devRef .tc main_arg0) = m ((c : Thread nD τ).loc main_arg0) :=
  (StableHlo.after_of_writes_sub hostOps0 _ hostOps0_writes (r := main_arg0) (by decide)).trans rfl

/-! ## The second stretch -/

/-- The first kernel's result as a scalar. -/
theorem W3_v31 (c : Dev nD) : W3 m ρ c (Proc.devRef .tc main_v31)
    = (shapeCast S_ (W2 m ρ c (Proc.devRef .tc main_v30)) shapeCasts_S1x1_S_ : FVec F S_ .f32) := by
  show StableHlo.after hostOps1 (W2 m ρ c) (Proc.devRef .tc main_v31) = _
  after_results; rfl

/-- The second kernel's operands: the scores and the mask as one row, the gathered scores as one column. -/
theorem W3_v32 (c : Dev nD) : W3 m ρ c (Proc.devRef .tc main_v32)
    = (shapeCast S1x131072 (m ((c : Thread nD τ).loc main_arg0)) shapeCasts_S131072_S1x131072 : FVec F S1x131072 .f32) := by
  have e : W2 m ρ c (Proc.devRef .tc main_arg0) = m ((c : Thread nD τ).loc main_arg0) :=
    (W2_of_ne m ρ c main_arg0 (by decide)).trans (W1_arg0 m ρ c)
  show StableHlo.after hostOps1 (W2 m ρ c) (Proc.devRef .tc main_v32) = _
  after_results; rw [e]; rfl

theorem W3_v33 (c : Dev nD) : W3 m ρ c (Proc.devRef .tc main_v33)
    = (shapeCast S1x131072 (maskK (F := F) (m ((c : Thread nD τ).loc main_arg1))) shapeCasts_S131072_S1x131072 : FVec F S1x131072 .f32) := by
  have e : W2 m ρ c (Proc.devRef .tc main_v20) = (maskK (F := F) (m ((c : Thread nD τ).loc main_arg1)) : FVec F S131072 .f32) :=
    (W2_of_ne m ρ c main_v20 (by decide)).trans (W1_v20 m ρ c)
  show StableHlo.after hostOps1 (W2 m ρ c) (Proc.devRef .tc main_v33) = _
  after_results; rw [e]; rfl

theorem W3_v34 (c : Dev nD) : W3 m ρ c (Proc.devRef .tc main_v34)
    = (shapeCast S1024x1 (gtK (F := F) (m ((c : Thread nD τ).loc main_arg0)) (m ((c : Thread nD τ).loc main_arg1))) shapeCasts_S1024_S1024x1 : FVec F S1024x1 .f32) := by
  have e : W2 m ρ c (Proc.devRef .tc main_v27) = (gtK (F := F) (m ((c : Thread nD τ).loc main_arg0)) (m ((c : Thread nD τ).loc main_arg1)) : FVec F S1024 .f32) :=
    (W2_of_ne m ρ c main_v27 (by decide)).trans (W1_v27 m ρ c)
  show StableHlo.after hostOps1 (W2 m ρ c) (Proc.devRef .tc main_v34) = _
  after_results; rw [e]; rfl

/-! ## The last stretch -/

/-- The result: the first kernel's scalar plus half of the two halves' sums over 133169152. -/
theorem W5_v43 (c : Dev nD) : W5 m ρ c (Proc.devRef .tc main_v43)
    = (addf (W3 m ρ c (Proc.devRef .tc main_v31))
        (mulf (constant S_ .f32 0x3F000000#32)
          (Host.divf
            (addf (shapeCast S_ (extractStridedSlice S1x1 ![0, 0] (W4 m ρ c (Proc.devRef .tc main_v35)) slices_S16x128_S1x1_0_0) shapeCasts_S1x1_S_)
                  (shapeCast S_ (extractStridedSlice S1x1 ![8, 0] (W4 m ρ c (Proc.devRef .tc main_v35)) slices_S16x128_S1x1_8_0) shapeCasts_S1x1_S_))
            (constant S_ .f32 0x4CFE0000#32))) : FVec F S_ .f32) := by
  have e : W4 m ρ c (Proc.devRef .tc main_v31) = W3 m ρ c (Proc.devRef .tc main_v31) := W4_of_ne m ρ c main_v31 (by decide)
  show StableHlo.after hostOps2 (W4 m ρ c) (Proc.devRef .tc main_v43) = _
  after_results; rw [e]; rfl

end Cert.KernelIdeal.Hand

end
-- ==== Proof.Spec.lean ====
/-
  The two programs' results as formulas on the extended reals.
  Both compute  CE + (1/2) · margin / 133169152  from the scores x (131072 of them), the soft targets s, the mask mk and the
  gathered ground-truth scores g (1024 of them); s, mk and g are computed by the same host operations in both programs and
  are carried here as given arrays.
  CE  = − Σ_i s_i · ((x_i − M) − log Σ_k exp (x_k − M)),  M the maximum score. The kernel takes the maximum and the sums row by
  row over 1024 rows of 128 lanes (and multiplies by the literal 1 where the reference divides by it); the reference takes them
  flat.
  margin = Σ_{r,i} max (1 − (g_r − x_i)) 0 · mk_i. The kernel forms max ((1 − g_r) + x_i) 0 · mk_i on tiles of 2048 columns,
  sums each tile over its 1024 rows, accumulates 32 tiles per half of the columns lane by lane, sums the 2048 lanes, and adds the
  two halves; the reference sums the whole 1024 × 131072 table at once.
  Float literals are kept as their bit patterns (the same word on both sides is never evaluated).
-/
import Idealize.ShloMosaic.PureOps.Ideal
import Mathlib.Algebra.BigOperators.Fin
import Mathlib.Data.Fintype.BigOperators

noncomputable section

namespace Cert.Spec

open Idealize.ShloMosaic
open scoped BigOperators

/-- The literals both programs use. -/
abbrev one : EReal := Ideal.ofBits .f32 0x3F800000#32
abbrev zero : EReal := Ideal.ofBits .f32 0x00000000#32
abbrev negInf : EReal := Ideal.ofBits .f32 0xFF800000#32
abbrev half : EReal := Ideal.ofBits .f32 0x3F000000#32
abbrev pairs : EReal := Ideal.ofBits .f32 0x4CFE0000#32

/-! ## The cross-entropy term -/

/-- Row by row, as the kernel's body computes it: x and s as 1024 rows of 128 lanes. -/
def ceRows (x s : Fin 1024 → Fin 128 → EReal) : EReal :=
  let y : Fin 1024 → Fin 128 → EReal := fun r l => x r l * one;
  let M : EReal := (Finset.univ : Finset (Fin 1024)).fold max negInf
    (fun r => (Finset.univ : Finset (Fin 128)).fold max negInf (fun l => y r l));
  let Z : EReal := ∑ r : Fin 1024, ∑ l : Fin 128, Ideal.exp (y r l - M);
  zero - ∑ r : Fin 1024, ∑ l : Fin 128, s r l * ((y r l - M) - Ideal.log Z)

/-- Flat, as the reference computes it. -/
def ceFlat (x s : Fin 131072 → EReal) : EReal :=
  let y : Fin 131072 → EReal := fun i => Ideal.div (x i) one;
  let M : EReal := max negInf ((Finset.univ : Finset (Fin 131072)).fold max negInf y);
  let Z : EReal := zero + ∑ i : Fin 131072, Ideal.exp (y i - M);
  Neg.neg (zero + ∑ i : Fin 131072, s i * ((y i - M) - Ideal.log Z))

/-! ## The margin term -/

/-- One tile's column sums: lane l of tile b (columns 2048·b … 2048·b + 2047), summed over the 1024 rows. -/
def tileCol (g : Fin 1024 → EReal) (x mk : Fin 131072 → EReal) (b : Fin 64) (l : Fin 2048) : EReal :=
  ∑ r : Fin 1024, max ((one - g r) + x ⟨2048 * b.val + l.val, by omega⟩) zero * mk ⟨2048 * b.val + l.val, by omega⟩

/-- The accumulator after the tiles 32·h … 32·h + j of half h, lane l: zero, then one tile's column sums added per step. -/
def accHalf (g : Fin 1024 → EReal) (x mk : Fin 131072 → EReal) (h : Fin 2) (l : Fin 2048) : (j : ℕ) → j < 32 → EReal
  | 0, _ => zero + tileCol g x mk ⟨32 * h.val, by omega⟩ l
  | j + 1, hj => accHalf g x mk h l j (by omega) + tileCol g x mk ⟨32 * h.val + (j + 1), by omega⟩ l

/-- Tile by tile, as the kernel computes it: each half's accumulator summed over its lanes, the two halves added. -/
def marginTiles (g : Fin 1024 → EReal) (x mk : Fin 131072 → EReal) : EReal :=
  (∑ l : Fin 2048, accHalf g x mk 0 l 31 (by omega)) + (∑ l : Fin 2048, accHalf g x mk 1 l 31 (by omega))

/-- All at once, as the reference computes it. -/
def marginFlat (g : Fin 1024 → EReal) (x mk : Fin 131072 → EReal) : EReal :=
  zero + ∑ p : Fin 1024 × Fin 131072, max (one - (g p.1 - x p.2)) zero * mk p.2

/-! ## The results -/

/-- The kernel's result. -/
def kernelResult (xr sr : Fin 1024 → Fin 128 → EReal) (g : Fin 1024 → EReal) (x mk : Fin 131072 → EReal) : EReal :=
  ceRows xr sr + half * Ideal.div (marginTiles g x mk) pairs

/-- The reference's result. -/
def referenceResult (g : Fin 1024 → EReal) (x s mk : Fin 131072 → EReal) : EReal :=
  ceFlat x s + half * Ideal.div (marginFlat g x mk) pairs

end Cert.Spec

end
-- ==== Proof.LibRowSum.lean ====
/-
  Rows of a matrix summed along the lanes, and the column that sum is kept as.

  A reduction of an [a, b] array along its second axis is read at a row as the sum of that row's b entries, both
  when a vector unit does it (a multi-reduction with add) and when the host does it (a reduce with an add body from a zero
  initial value).  The result, a vector of a entries, is usually kept as a column [a, 1] and spread back over b lanes;
  the column forms of the layout operations are read here at an index given by coordinates: a vector [a] cast or
  broadcast to the column [a, 1], and the column [a, 1] broadcast to [a, b].  Every lemma is over arbitrary extents and
  mentions no program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRowSum

open Idealize.ShloMosaic Idealize.ShloMosaic.ValueIdx

variable {α : Type}

/-! ## The column forms of the layout operations -/

/-- A vector [a] cast to the column [a, 1] reads, at (i, u), the vector at i: the two row-major positions are
    i and i * 1 + 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b lanes reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a vector [a] into the column [a, 1] along axis 0 reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The host's broadcast of a column [a, 1] to [a, b] along both axes reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's sum -/

/-- The source index a lane reduction reads for row r and lane k is (r, k). -/
theorem lift_lane {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A vector unit's add reduction of an [a, b] array along the lanes, read at row r at the ideal values, is the sum of the
    row's entries.  The accumulator's word is any word that is the sum's neutral one. -/
theorem multiReduction_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_lane h r k)

/-- The host's reduce of an [a, b] array along the lanes with an add body, read at row r at the ideal values, is the
    initial value plus the sum of the row's entries. -/
theorem hostReduceAdd_lane_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_lane h r k))

end Cert.LibRowSum

end
-- ==== Proof.LibColSum.lean ====
/-
  Columns of a matrix summed over the rows, and the small layout facts that go with them.

  A reduction of an [a, b] array along its first axis is read at a lane as the sum of that lane's a entries; a single entry
  [1, 1] spread over an [a, b] array reads that entry everywhere; a sum over the a·b rows of a tall array cut into a
  blocks of b rows is the sum over the blocks of each block's sum.  Every lemma is over arbitrary extents and mentions no
  program.
-/
import Mathlib.Algebra.BigOperators.Fin
import Mathlib.Data.Fintype.BigOperators
import Mathlib.Tactic.Ring
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColSum

open Idealize.ShloMosaic Idealize.ShloMosaic.ValueIdx

variable {α : Type}

/-- The source index a row reduction reads for lane j and row r is (r, j). -/
theorem lift_row {a b : ℕ} (h : (⟨2, ![a, b]⟩ : Shape).Reduces [0] ⟨1, ![b]⟩) (j : Fin b) (r : Fin a) :
    h.lift (ix1 j) r = ix2 r j := by
  funext c
  apply Fin.ext
  match c with
  | ⟨0, _⟩ => rfl
  | ⟨1, _⟩ => rfl

/-- A vector unit's add reduction of an [a, b] array over the rows, read at lane j at the ideal values, is the sum of the
    lane's entries.  The accumulator's word is any word that is the sum's neutral one. -/
theorem multiReduction_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  refine (Ideal.multiReduction_add_single src acc h hφ hacc (ix1 j)).trans ?_
  exact Finset.sum_congr rfl fun r _ => congrArg src (lift_row h j r)

/-- A single entry [1, 1] spread over an [a, b] array reads that entry at every index. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A sum over the n·m rows of a tall array is the sum over its n blocks of m rows of each block's sum: only the order
    and grouping of the terms change. -/
theorem sum_blocks {M : Type*} [AddCommMonoid M] (n m : ℕ) (f : Fin (n * m) → M) :
    ∑ i : Fin (n * m), f i
      = ∑ t : Fin n, ∑ y : Fin m, f ⟨m * t.val + y.val, by
          have ht := t.isLt; have hy := y.isLt
          calc m * t.val + y.val < m * t.val + m := by omega
            _ = m * (t.val + 1) := by ring
            _ ≤ m * n := Nat.mul_le_mul_left m ht
            _ = n * m := Nat.mul_comm m n⟩ := by
  rw [← Equiv.sum_comp finProdFinEquiv f, Fintype.sum_prod_type]
  refine Finset.sum_congr rfl fun t _ => Finset.sum_congr rfl fun y _ => congrArg f (Fin.ext ?_)
  show y.val + m * t.val = m * t.val + y.val
  omega

end Cert.LibColSum

end
-- ==== Proof.PayloadValue.lean ====
/- The three payloads of the two kernel bodies, read at an index at the ideal values, as the formulas of the
   specification: the cross-entropy body's one entry, the margin body's zero fill, its accumulation step at a lane, and
   its final lane sum. -/
import proofs.«179181_j83227876262472_2_alg».proof.Proof.Gen.KernelIdeal.Skeleton
import proofs.«179181_j83227876262472_2_alg».proof.Proof.Spec
import proofs.«179181_j83227876262472_2_alg».proof.Proof.LibRowSum
import proofs.«179181_j83227876262472_2_alg».proof.Proof.LibColSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Cert.KernelIdeal Cert.KernelIdeal.Gen
open Idealize.ShloMosaic Idealize.ShloMosaic.ValueIdx

/-! ## The margin body's zero fill -/

/-- The zero fill is the zero word at every lane: a cast to the same shape of a constant array. -/
theorem k1_pay1_apply (j : S1x2048.Idx) : Cert.KernelIdeal.Gen.k1_pay1 (F := Ideal) j = Cert.Spec.zero := by
  unfold Gen.k1_pay1
  rw [shapeCast_self]
  rfl

/-! ## The margin body's final lane sum -/

/-- The final store spreads the sum of the accumulator's 2048 lanes over the whole 8x128 block. -/
theorem k1_pay3_apply (A : FVec Ideal S1x2048 .f32) (j : S8x128.Idx) :
    Cert.KernelIdeal.Gen.k1_pay3 (F := Ideal) A j = ∑ l : Fin 2048, A (ix2 (0 : Fin 1) l) := by
  obtain ⟨p, q, rfl⟩ : ∃ (p : Fin 8) (q : Fin 128), j = ix2 p q := ⟨j 0, j 1, eq_ix2 j⟩
  unfold Gen.k1_pay3
  refine (Cert.LibColSum.broadcastTo_11_ab_apply _ _ p q).trans ?_
  rw [shapeCast_self]
  refine (Cert.LibRowSum.shapeCast_a_a1_apply _ _ (0 : Fin 1) (0 : Fin 1)).trans ?_
  exact Cert.LibRowSum.multiReduction_lane_apply A _ _ _ _ (0 : Fin 1)

/-! ## The margin body's accumulation step -/

/-- One tile's step at lane l: the accumulator's lane plus the sum over the 1024 rows of
    max ((1 - g r) + x l) 0 * mk l. -/
theorem k1_pay2_apply (G : FVec Ideal S1024x1 .f32) (Xb Mb A : FVec Ideal S1x2048 .f32) (l : Fin 2048) :
    Cert.KernelIdeal.Gen.k1_pay2 (F := Ideal) G Xb Mb A (ix2 (0 : Fin 1) l)
      = A (ix2 (0 : Fin 1) l) + ∑ r : Fin 1024, max ((Cert.Spec.one - G (ix2 r (0 : Fin 1))) + Xb (ix2 (0 : Fin 1) l)) Cert.Spec.zero * Mb (ix2 (0 : Fin 1) l) := by
  unfold Gen.k1_pay2
  simp only [shapeCast_self]
  rw [addf_apply]
  refine congrArg (A (ix2 (0 : Fin 1) l) + ·) ?_
  refine (shapeCast_a_1a_apply _ _ (0 : Fin 1) l).trans ?_
  refine (Cert.LibColSum.multiReduction_row_apply _ _ _ _ _ l).trans ?_
  refine Finset.sum_congr rfl fun r _ => ?_
  rw [mulf_apply, maximumf_apply, addf_apply, broadcast_apply]
  rw [broadcastTo_1b_ab_apply Mb _ r l, broadcastTo_1b_ab_apply Xb _ r l]
  rw [Cert.LibRowSum.broadcastTo_a1_ab_apply _ _ r l, subf_apply, broadcast_apply]
  rfl

/-! ## The cross-entropy body's entry -/

/-- A vector unit's max reduction of an [a, b] array along the lanes, read at row r at the ideal values: the fold of max
    from the accumulator's value over the row's entries. -/
theorem multiReduction_max_lane_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have e : (src ∘ h.lift (ix1 r)) = fun k : Fin b => src (ix2 r k) :=
    funext fun k => congrArg src (Cert.LibRowSum.lift_lane h r k)
  exact congrArg (fun f => Finset.fold max (Ideal.ofBits φ acc) f (Finset.univ : Finset (Fin b))) e

/-- The same over the rows, read at lane j: the fold of max over the lane's entries. -/
theorem multiReduction_max_row_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (j : Fin b) :
    multiReduction .maximumf [0] ⟨1, ![b]⟩ src acc h hφ hacc (ix1 j)
      = (Finset.univ : Finset (Fin a)).fold max (Ideal.ofBits φ acc) (fun r => src (ix2 r j)) := by
  refine (Ideal.multiReduction_maximumf_single src acc h hφ hacc (ix1 j)).trans ?_
  have e : (src ∘ h.lift (ix1 j)) = fun r : Fin a => src (ix2 r j) :=
    funext fun r => congrArg src (Cert.LibColSum.lift_row h j r)
  exact congrArg (fun f => Finset.fold max (Ideal.ofBits φ acc) f (Finset.univ : Finset (Fin a))) e

/-- The sum of a whole [a, b] array as the vector unit takes it — along the lanes, the row sums kept as a column, the column
    summed, the one entry kept as [1, 1] — is the double sum over rows and lanes. -/
theorem total_sum_apply {a b : ℕ} {φ : FTy} (Y : FVec Ideal ⟨2, ![a, b]⟩ φ) (w1 w2 : BitVec φ.bits)
    (h1 : (⟨2, ![a, b]⟩ : Shape).Reduces [1] ⟨1, ![a]⟩) (c1 : (⟨1, ![a]⟩ : Shape).ShapeCasts ⟨2, ![a, 1]⟩)
    (h2 : (⟨2, ![a, 1]⟩ : Shape).Reduces [0] ⟨1, ![1]⟩) (c2 : (⟨1, ![1]⟩ : Shape).ShapeCasts ⟨2, ![1, 1]⟩)
    (hφ : FKind.Formats φ) (ha1 : w1 = FKind.add.neutral φ hφ) (ha2 : w2 = FKind.add.neutral φ hφ) (p q : Fin 1) :
    shapeCast ⟨2, ![1, 1]⟩ (multiReduction .add [0] ⟨1, ![1]⟩
        (shapeCast ⟨2, ![a, 1]⟩ (multiReduction .add [1] ⟨1, ![a]⟩ Y w1 h1 hφ ha1) c1) w2 h2 hφ ha2) c2 (ix2 p q)
      = ∑ r : Fin a, ∑ l : Fin b, Y (ix2 r l) := by
  refine (Cert.LibRowSum.shapeCast_a_a1_apply _ _ p q).trans ?_
  refine (Cert.LibColSum.multiReduction_row_apply _ _ _ _ _ p).trans ?_
  refine Finset.sum_congr rfl fun r _ => ?_
  refine (Cert.LibRowSum.shapeCast_a_a1_apply _ _ r p).trans ?_
  exact Cert.LibRowSum.multiReduction_lane_apply Y _ _ _ _ r

/-- The maximum of a whole [a, b] array taken the same way is the fold of max over the rows of each row's fold of max. -/
theorem total_max_apply {a b : ℕ} {φ : FTy} (Y : FVec Ideal ⟨2, ![a, b]⟩ φ) (w1 w2 : BitVec φ.bits)
    (h1 : (⟨2, ![a, b]⟩ : Shape).Reduces [1] ⟨1, ![a]⟩) (c1 : (⟨1, ![a]⟩ : Shape).ShapeCasts ⟨2, ![a, 1]⟩)
    (h2 : (⟨2, ![a, 1]⟩ : Shape).Reduces [0] ⟨1, ![1]⟩) (c2 : (⟨1, ![1]⟩ : Shape).ShapeCasts ⟨2, ![1, 1]⟩)
    (hφ : FKind.Formats φ) (hm1 : w1 = FKind.maximumf.neutral φ hφ) (hm2 : w2 = FKind.maximumf.neutral φ hφ) (p q : Fin 1) :
    shapeCast ⟨2, ![1, 1]⟩ (multiReduction .maximumf [0] ⟨1, ![1]⟩
        (shapeCast ⟨2, ![a, 1]⟩ (multiReduction .maximumf [1] ⟨1, ![a]⟩ Y w1 h1 hφ hm1) c1) w2 h2 hφ hm2) c2 (ix2 p q)
      = (Finset.univ : Finset (Fin a)).fold max (Ideal.ofBits φ w2)
          (fun r => (Finset.univ : Finset (Fin b)).fold max (Ideal.ofBits φ w1) (fun l => Y (ix2 r l))) := by
  refine (Cert.LibRowSum.shapeCast_a_a1_apply _ _ p q).trans ?_
  refine (multiReduction_max_row_apply _ _ _ _ _ p).trans ?_
  refine congrArg (fun f => Finset.fold max (Ideal.ofBits φ w2) f (Finset.univ : Finset (Fin a))) (funext fun r => ?_)
  refine (Cert.LibRowSum.shapeCast_a_a1_apply _ _ r p).trans ?_
  exact multiReduction_max_lane_apply Y _ _ _ _ r

section CE

variable (X S : FVec Ideal S1024x128 .f32)

/-- The scores times the literal one. -/
def scaled : FVec Ideal S1024x128 .f32 :=
  mulf (shapeCast S1024x128 X shapeCasts_S1024x128_S1024x128) (broadcast S1024x128 (Scalar.ofBits .f32 0x3F800000#32))

theorem scaled_apply (r : Fin 1024) (l : Fin 128) : scaled X (ix2 r l) = X (ix2 r l) * Cert.Spec.one := by
  unfold scaled
  rw [mulf_apply, shapeCast_self, broadcast_apply]
  rfl

/-- Their maximum, as the one entry of a [1, 1] array. -/
def gmax : FVec Ideal S1x1 .f32 :=
  shapeCast S1x1 (multiReduction .maximumf [0] S1
    (shapeCast S1024x1 (multiReduction .maximumf [1] S1024 (scaled X) 0xFF800000#32 reduces_S1024x128_S1024 (.inl rfl) rfl) shapeCasts_S1024_S1024x1)
    0xFF800000#32 reduces_S1024x1_S1 (.inl rfl) rfl) shapeCasts_S1_S1x1

/-- The maximum as the specification writes it. -/
def specMax : EReal :=
  (Finset.univ : Finset (Fin 1024)).fold max Cert.Spec.negInf
    (fun r => (Finset.univ : Finset (Fin 128)).fold max Cert.Spec.negInf (fun l => X (ix2 r l) * Cert.Spec.one))

theorem gmax_apply (p q : Fin 1) : gmax X (ix2 p q) = specMax X := by
  unfold gmax specMax
  refine (total_max_apply (scaled X) _ _ _ _ _ _ _ _ _ p q).trans ?_
  simp only [scaled_apply]

/-- The scores shifted by their maximum. -/
def shifted : FVec Ideal S1024x128 .f32 :=
  subf (scaled X) (broadcastTo S1024x128 (gmax X) broadcasts_S1x1_S1024x128)

theorem shifted_apply (r : Fin 1024) (l : Fin 128) : shifted X (ix2 r l) = X (ix2 r l) * Cert.Spec.one - specMax X := by
  unfold shifted
  rw [subf_apply, scaled_apply, Cert.LibColSum.broadcastTo_11_ab_apply _ _ r l, gmax_apply]

/-- The sum of the exponentials, as the one entry of a [1, 1] array. -/
def zsum : FVec Ideal S1x1 .f32 :=
  shapeCast S1x1 (multiReduction .add [0] S1
    (shapeCast S1024x1 (multiReduction .add [1] S1024 (exp (shifted X)) 0x00000000#32 reduces_S1024x128_S1024 (.inl rfl) rfl) shapeCasts_S1024_S1024x1)
    0x00000000#32 reduces_S1024x1_S1 (.inl rfl) rfl) shapeCasts_S1_S1x1

theorem zsum_apply (p q : Fin 1) :
    zsum X (ix2 p q) = ∑ r : Fin 1024, ∑ l : Fin 128, Ideal.exp (X (ix2 r l) * Cert.Spec.one - specMax X) := by
  unfold zsum
  refine (total_sum_apply (exp (shifted X)) _ _ _ _ _ _ _ _ _ p q).trans ?_
  refine Finset.sum_congr rfl fun r _ => Finset.sum_congr rfl fun l _ => ?_
  show Ideal.exp (shifted X (ix2 r l)) = _
  rw [shifted_apply]

/-- The log-probabilities: the shifted scores less the logarithm of that sum. -/
def logp : FVec Ideal S1024x128 .f32 :=
  subf (shifted X) (broadcastTo S1024x128 (log (zsum X)) broadcasts_S1x1_S1024x128)

theorem logp_apply (r : Fin 1024) (l : Fin 128) :
    logp X (ix2 r l) = (X (ix2 r l) * Cert.Spec.one - specMax X)
      - Ideal.log (∑ r : Fin 1024, ∑ l : Fin 128, Ideal.exp (X (ix2 r l) * Cert.Spec.one - specMax X)) := by
  unfold logp
  rw [subf_apply, shifted_apply, Cert.LibColSum.broadcastTo_11_ab_apply _ _ r l]
  show _ - Ideal.log (zsum X (ix2 (0 : Fin 1) (0 : Fin 1))) = _
  rw [zsum_apply]

/-- The payload is those stages composed: zero less the sum of the targets times the log-probabilities. -/
theorem k0_pay1_eq : Cert.KernelIdeal.Gen.k0_pay1 (F := Ideal) X S
    = subf (broadcast S1x1 (Scalar.ofBits .f32 0x00000000#32))
        (shapeCast S1x1 (multiReduction .add [0] S1
          (shapeCast S1024x1 (multiReduction .add [1] S1024
              (mulf (shapeCast S1024x128 S shapeCasts_S1024x128_S1024x128) (logp X))
              0x00000000#32 reduces_S1024x128_S1024 (.inl rfl) rfl) shapeCasts_S1024_S1024x1)
          0x00000000#32 reduces_S1024x1_S1 (.inl rfl) rfl) shapeCasts_S1_S1x1) := rfl

/-- The one entry the cross-entropy body stores is the specification's row-by-row formula of the two blocks. -/
theorem k0_pay1_apply (j : S1x1.Idx) :
    Cert.KernelIdeal.Gen.k0_pay1 (F := Ideal) X S j
      = Cert.Spec.ceRows (fun r l => X (ix2 r l)) (fun r l => S (ix2 r l)) := by
  obtain ⟨p, q, rfl⟩ : ∃ (p : Fin 1) (q : Fin 1), j = ix2 p q := ⟨j 0, j 1, eq_ix2 j⟩
  rw [k0_pay1_eq, subf_apply, broadcast_apply]
  refine congrArg (Cert.Spec.zero - ·) ?_
  refine (total_sum_apply _ _ _ _ _ _ _ _ _ _ p q).trans ?_
  refine Finset.sum_congr rfl fun r _ => Finset.sum_congr rfl fun l _ => ?_
  rw [mulf_apply, shapeCast_self, logp_apply]
  rfl

end CE

end Cert.KernelIdeal.PayloadValue

end
-- ==== Proof.IdealRegion1Value.lean ====
/-
  The second pallas_call's values.
  What each case's stores leave in the accumulator and in the output block is a payload of the blocks the windows hold at
  that point: every store and load of the body is through the whole-buffer rectangle, so a store leaves its payload and a
  load reads what the last store left. Unrolled over the grid: the accumulator after point n is this point's column sums
  added to zero where j = 0 and to the accumulator after point n - 1 elsewhere; the output array's rows 0..7 end at the
  broadcast lane sum of the accumulator after point 31 and its rows 8..15 at that after point 63; and the input blocks
  are read off their arrays at the block's offset.
-/
import proofs.«179181_j83227876262472_2_alg».proof.Proof.IdealRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer rectangle, however spelt. -/
theorem hz2 : (![0, 0] : Fin 2 → Nat) = fun _ => 0 := funext fun a => by fin_cases a <;> rfl

/-! ## What each case's stores leave: the payloads -/

/-- Case B: the accumulator's one whole store leaves this point's column sums added to what was loaded,
    the loads reading the whole staging buffers and the accumulator as it entered. -/
theorem soutB_eq (c : Dev nD) (t : Fin cfg1.N) (h0 : ¬t.val % 32 = 0) (h1 : ¬t.val % 32 = 31) (xs : Vec F S1x2048 .f32) :
    soutB V c t h0 h1 xs = k1_pay2 (iblk1 V c 0 t) (iblk1 V c 1 t) (iblk1 V c 2 t) xs := by
  unfold soutB
  rw [View.read_writes_junk_eq_canon]
  unfold runB kernelRun1_B
  dsimp only
  rw [View.canon_unit_zero (S := S1x2048) hz2]
  simp only [View.readAt_eq_ld, (hs1_0 t).read_unread, (hs1_1 t).read_unread, (hs1_2 t).read_unread,
    (Memref.isWhole_whole cc1_scratch0).read_unread,
    View.ld_unit_zero (S := S1x2048) hz2, View.ld_unit_zero (S := S1024x1) hz2]

/-- Case C leaves the same in the accumulator: the output's store comes after and does not touch it. -/
theorem soutC_eq (c : Dev nD) (t : Fin cfg1.N) (h0 : ¬t.val % 32 = 0) (h1 : t.val % 32 = 31) (xs : Vec F S1x2048 .f32) :
    soutC V c t h0 h1 xs = k1_pay2 (iblk1 V c 0 t) (iblk1 V c 1 t) (iblk1 V c 2 t) xs := by
  unfold soutC
  rw [View.read_writes_junk_eq_canon]
  unfold runC kernelRun1_C
  dsimp only
  sl_unfold_words
  rw [View.canon_unit_zero (S := S1x2048) hz2]
  simp only [View.readAt_eq_ld, (hs1_0 t).read_unread, (hs1_1 t).read_unread, (hs1_2 t).read_unread,
    (Memref.isWhole_whole cc1_scratch0).read_unread,
    View.ld_unit_zero (S := S1x2048) hz2, View.ld_unit_zero (S := S1024x1) hz2]

/-- Case C's output block: the lane sum, broadcast, of the accumulator read back after its store. -/
theorem outC_eq (c : Dev nD) (t : Fin cfg1.N) (h0 : ¬t.val % 32 = 0) (h1 : t.val % 32 = 31) (xs : Vec F S1x2048 .f32) :
    outC V c t h0 h1 xs = k1_pay3 (k1_pay2 (iblk1 V c 0 t) (iblk1 V c 1 t) (iblk1 V c 2 t) xs) := by
  unfold outC
  rw [View.read_writes_junk_eq_canon]
  unfold runC kernelRun1_C
  dsimp only
  sl_unfold_words
  rw [View.canon_unit_zero (S := S8x128) hz2, View.readCov_unit_zero (S := S1x2048) _ hz2]
  simp only [View.readAt_eq_ld, (hs1_0 t).read_unread, (hs1_1 t).read_unread, (hs1_2 t).read_unread,
    (Memref.isWhole_whole cc1_scratch0).read_unread,
    View.ld_unit_zero (S := S1x2048) hz2, View.ld_unit_zero (S := S1024x1) hz2]

/-- Case A: the accumulator is stored twice, the zero splat and then this point's column sums added to the
    splat read back; the later store is what stays. -/
theorem soutA_eq (c : Dev nD) (t : Fin cfg1.N) (h0 : t.val % 32 = 0) (h1 : ¬t.val % 32 = 31) :
    soutA V c t h0 h1 = k1_pay2 (iblk1 V c 0 t) (iblk1 V c 1 t) (iblk1 V c 2 t) (k1_pay1 (F := F)) := by
  unfold soutA
  rw [View.read_writes_junk_eq_canon]
  unfold runA kernelRun1_A
  dsimp only
  sl_unfold_words
  rw [View.canon_cons_unit_zero (S := S1x2048) hz2, View.readCov_unit_zero (S := S1x2048) _ hz2]
  simp only [View.readAt_eq_ld, (hs1_0 t).read_unread, (hs1_1 t).read_unread, (hs1_2 t).read_unread,
    (Memref.isWhole_whole cc1_scratch0).read_unread,
    View.ld_unit_zero (S := S1x2048) hz2, View.ld_unit_zero (S := S1024x1) hz2]

/-! ## The input blocks, read off their arrays -/

/-- The input windows' index maps over the grid: window 0 always reads block (0, 0); windows 1 and 2 read block (0, t),
    the point's own number (32 · (t / 32) + t % 32). -/
theorem idx1_in : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- Window 0's block is its whole array (a column of 1024 rows) at every point. -/
theorem iblk1_0_apply (c : Dev nD) (t : Fin cfg1.N) (r : Fin 1024) :
    iblk1 V c 0 t (ValueIdx.ix2 r 0) = V c main_v34 (ValueIdx.ix2 r 0) := by
  obtain ⟨e0, e1, -⟩ := idx1_in t
  unfold iblk1
  rw [View.read_apply]
  show V c main_v34 _ = V c main_v34 _
  congr 1
  funext a; apply Fin.ext
  match a with
  | ⟨0, _⟩ => show win1_0.index t (0 : Fin 2) * 1024 + 1 * r.val = r.val; rw [e0]; omega
  | ⟨1, _⟩ => show win1_0.index t (1 : Fin 2) * 1 + 1 * 0 = 0; rw [e1]

/-- Window 1's block at point t is lanes 2048 t .. 2048 t + 2047 of its one-row array. -/
theorem iblk1_1_apply (c : Dev nD) (t : Fin cfg1.N) (l : Fin 2048) :
    iblk1 V c 1 t (ValueIdx.ix2 0 l)
      = V c main_v32 (ValueIdx.ix2 0 ⟨2048 * t.val + l.val, by have := t.isLt; have : cfg1.N = 64 := N_1; omega⟩) := by
  obtain ⟨-, -, e0, e1, -⟩ := idx1_in t
  unfold iblk1
  rw [View.read_apply]
  show V c main_v32 _ = V c main_v32 _
  congr 1
  funext a; apply Fin.ext
  match a with
  | ⟨0, _⟩ => show win1_1.index t (0 : Fin 2) * 1 + 1 * 0 = 0; rw [e0]
  | ⟨1, _⟩ => show win1_1.index t (1 : Fin 2) * 2048 + 1 * l.val = 2048 * t.val + l.val; rw [e1]; omega

/-- Window 2's likewise. -/
theorem iblk1_2_apply (c : Dev nD) (t : Fin cfg1.N) (l : Fin 2048) :
    iblk1 V c 2 t (ValueIdx.ix2 0 l)
      = V c main_v33 (ValueIdx.ix2 0 ⟨2048 * t.val + l.val, by have := t.isLt; have : cfg1.N = 64 := N_1; omega⟩) := by
  obtain ⟨-, -, -, -, e0, e1⟩ := idx1_in t
  unfold iblk1
  rw [View.read_apply]
  show V c main_v33 _ = V c main_v33 _
  congr 1
  funext a; apply Fin.ext
  match a with
  | ⟨0, _⟩ => show win1_2.index t (0 : Fin 2) * 1 + 1 * 0 = 0; rw [e0]
  | ⟨1, _⟩ => show win1_2.index t (1 : Fin 2) * 2048 + 1 * l.val = 2048 * t.val + l.val; rw [e1]; omega

end Cert.KernelIdeal.Hand

end
-- ==== Proof.IdealRegion1Array.lean ====
/-
  The second pallas_call's output array in closed form.
  The array has 16 rows of 128 lanes, in two blocks of 8 rows; block q is written back once, at the last point of half q of
  the grid (point 32 q + 31), holding the payload (the lane sum, broadcast) of the accumulator after that point. Hence rows
  0..7 of the array end at the payload of the accumulator after point 31 and rows 8..15 at that after point 63.
-/
import proofs.«179181_j83227876262472_2_alg».proof.Proof.IdealRegion1Value
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 idx2_lt0 idx2_lt1)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulator after a point, and the block stored at a flushing point -/

/-- The accumulator after the body at position n. -/
def accAt (c : Dev nD) (n : ℕ) (hn : n < cfg1.N) : Vec F S1x2048 .f32 := (outsAt1 V c n hn).2

/-- The accumulator depends on the position only, not on how the bound is proved. -/
theorem accAt_congr (c : Dev nD) {n n' : ℕ} (hn : n < cfg1.N) (hn' : n' < cfg1.N) (e : n = n') :
    accAt V c n hn = accAt V c n' hn' := by
  subst e; rfl

/-- At a flushing point the output block is the payload of the accumulator the same point leaves. -/
theorem out_at_flush (c : Dev nD) (t : Fin cfg1.N) (h1 : t.val % 32 = 31) :
    (outsAt1 V c t.val t.isLt).1 = k1_pay3 (accAt V c t.val t.isLt) := by
  have h0 : ¬ t.val % 32 = 0 := by omega
  unfold accAt
  rw [outsAt1_C V c t h0 h1, outC_eq, soutC_eq]

/-! ## The output array of the second call in closed form

The output array has 16 rows of 128 lanes, in two blocks of 8 rows. Block q is written back once, at the last point of
half q of the grid (point 32 q + 31), and holds there the payload of the accumulator after that point. So row r of the
array ends at the payload of the accumulator after point 32 (r / 8) + 31, read at row r % 8. -/

/-- The output window's index map, decided over the grid: the block is the half the point lies in, on the one lane block. -/
theorem idx_facts1_3 : ∀ t : Fin cfg1.N, win1_3.index t (0 : Fin 2) = t.val / 32 ∧ win1_3.index t (1 : Fin 2) = 0 :=
  (by decide +kernel : ∀ t : Fin grid1.N, _)

/-- Each of the two blocks is written back at some point. -/
theorem idx_onto1_3 : ∀ q : Fin 2, ∃ t : Fin cfg1.N, t.val % 32 = 31 ∧ t.val / 32 = q.val :=
  (by decide +kernel : ∀ q : Fin 2, ∃ t : Fin grid1.N, t.val % 32 = 31 ∧ t.val / 32 = q.val)

theorem G1_3_bound (i : S16x128.Idx) : 32 * ((i 0).val / 8) + 31 < cfg1.N := by
  have h : (i 0).val < 16 := idx2_lt0 i
  have hN : cfg1.N = 64 := N_1
  omega

/-- The array the region leaves, as one function of the accumulator's two final values. -/
def G1_3 (c : Dev nD) : Vec F S16x128 .f32 := fun i =>
  k1_pay3 (accAt V c (32 * ((i 0).val / 8) + 31) (G1_3_bound i))
    (ix2 (⟨(i 0).val % 8, Nat.mod_lt _ (by decide)⟩ : Fin 8) (⟨(i 1).val, idx2_lt1 i⟩ : Fin 128))

/-- What a flushing point writes back is its block of `G1_3`. -/
theorem flushed1_3_eq (c : Dev nD) (t : Fin cfg1.N) (h : (cfg1.win 3).flush t = true) :
    (dat1 V c).flushed 3 t = ((cfg1.win 3).blk t).view.read (Elt F) (G1_3 V c) := by
  have h1 : t.val % 32 = 31 := (flush1_3 t).mp h
  have hN : t.val < 64 := lt_of_lt_of_eq t.isLt (show cfg1.N = 64 from N_1)
  show (cfg1.win 3).cut (grid1.coords t) ((dat1 V c).after 3 t) = _
  rw [after1_3, out_at_flush V c t h1]
  obtain ⟨e0, e1⟩ := idx_facts1_3 t
  funext j
  show k1_pay3 (accAt V c t.val t.isLt) j = G1_3 V c (((cfg1.win 3).blk t).view.emb j)
  have hj0 : (j 0).val < 8 := (j 0).isLt
  have hj1 : (j 1).val < 128 := (j 1).isLt
  have he0 : ((((cfg1.win 3).blk t).view.emb j) 0).val = t.val / 32 * 8 + (j 0).val := by
    show win1_3.index t (0 : Fin 2) * 8 + 1 * (j 0).val = _; omega
  have he1 : ((((cfg1.win 3).blk t).view.emb j) 1).val = (j 1).val := by
    show win1_3.index t (1 : Fin 2) * 128 + 1 * (j 1).val = _; omega
  unfold G1_3
  refine congr (congrArg k1_pay3 (accAt_congr V c _ _ ?_)) ?_
  · rw [he0]; omega
  · funext a; apply Fin.ext
    match a with
    | ⟨0, _⟩ => show (j 0).val = ((((cfg1.win 3).blk t).view.emb j) 0).val % 8; rw [he0]; omega
    | ⟨1, _⟩ => show (j 1).val = ((((cfg1.win 3).blk t).view.emb j) 1).val; rw [he1]

/-- An index of the output array is in point `t`'s block iff each coordinate is in the block's range on its axis. -/
theorem mem_blk1_3 (t : Fin cfg1.N) (i : S16x128.Idx) :
    i ∈ ((cfg1.win 3).blk t).view.set ↔ ∀ a : Fin 2, win1_3.index t a * S8x128.size a ≤ (i a).val ∧ (i a).val < win1_3.index t a * S8x128.size a + S8x128.size a := by
  show i ∈ ((View.whole main_v35).slice (win1_3.rect t)).set ↔ _
  rw [View.set_slice_whole, Rect.mem_set_unit]
  exact Iff.rfl

/-- The two flushed blocks cover the array: row r lies in the block of half r / 8. -/
theorem cover_arr1_3 (i : S16x128.Idx) :
    ∃ t : Fin cfg1.N, (cfg1.win 3).flush t = true ∧ i ∈ ((cfg1.win 3).blk t).view.set := by
  have hi0 : (i 0).val < 16 := idx2_lt0 i
  have hi1 : (i 1).val < 128 := idx2_lt1 i
  obtain ⟨t, ht1, ht2⟩ := idx_onto1_3 ⟨(i 0).val / 8, by omega⟩
  have ht2' : t.val / 32 = (i 0).val / 8 := ht2
  refine ⟨t, (flush1_3 t).mpr ht1, ?_⟩
  obtain ⟨e0, e1⟩ := idx_facts1_3 t
  rw [mem_blk1_3]
  intro a
  match a with
  | ⟨0, _⟩ =>
    show win1_3.index t (0 : Fin 2) * 8 ≤ (i 0).val ∧ (i 0).val < win1_3.index t (0 : Fin 2) * 8 + 8
    omega
  | ⟨1, _⟩ =>
    show win1_3.index t (1 : Fin 2) * 128 ≤ (i 1).val ∧ (i 1).val < win1_3.index t (1 : Fin 2) * 128 + 128
    omega

/-- THE OUTPUT ARRAY after the region. -/
theorem arrAt1_3 (c : Dev nD) : (dat1 V c).arrAt 3 cfg1.N = G1_3 V c :=
  (dat1 V c).arrAt_eq_of_cover 3 (G1_3 V c) (fun t h => flushed1_3_eq V c t h) (cover_arr1_3)

/-- Rows 0..7: the payload of the accumulator after point 31. -/
theorem arrAt1_3_top (c : Dev nD) (i : Fin 8) (j : Fin 128) :
    (dat1 V c).arrAt 3 cfg1.N (ix2 (⟨i.val, by omega⟩ : Fin 16) j)
      = k1_pay3 (accAt V c 31 (by have hN : cfg1.N = 64 := N_1; omega)) (ix2 i j) := by
  refine (congrFun (arrAt1_3 V c) _).trans ?_
  unfold G1_3
  have hi : i.val < 8 := i.isLt
  refine congr (congrArg k1_pay3 (accAt_congr V c _ _ ?_)) ?_
  · show 32 * (i.val / 8) + 31 = 31; omega
  · funext a; apply Fin.ext
    match a with
    | ⟨0, _⟩ => show i.val % 8 = i.val; omega
    | ⟨1, _⟩ => rfl

/-- Rows 8..15: the payload of the accumulator after point 63. -/
theorem arrAt1_3_bot (c : Dev nD) (i : Fin 8) (j : Fin 128) :
    (dat1 V c).arrAt 3 cfg1.N (ix2 (⟨8 + i.val, by omega⟩ : Fin 16) j)
      = k1_pay3 (accAt V c 63 (by have hN : cfg1.N = 64 := N_1; omega)) (ix2 i j) := by
  refine (congrFun (arrAt1_3 V c) _).trans ?_
  unfold G1_3
  have hi : i.val < 8 := i.isLt
  refine congr (congrArg k1_pay3 (accAt_congr V c _ _ ?_)) ?_
  · show 32 * ((8 + i.val) / 8) + 31 = 63; omega
  · funext a; apply Fin.ext
    match a with
    | ⟨0, _⟩ => show (8 + i.val) % 8 = i.val; omega
    | ⟨1, _⟩ => rfl

end Cert.KernelIdeal.Hand

end
-- ==== Proof.IdealRegion1Acc.lean ====
/-
  The second pallas_call's accumulation, one step.
  The accumulator after point t is this point's column sums added to zero where j = 0, and to the accumulator after the
  point before elsewhere: the three cases' stores, read back as payloads, are the same payload of the accumulator as it
  entered; only what entered differs.
-/
import proofs.«179181_j83227876262472_2_alg».proof.Proof.IdealRegion1Array
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The second component of a pair given by an equation. -/
theorem snd_of_eq_mk {α β : Type} {p : α × β} {a : α} {b : β} (e : p = (a, b)) : p.2 = b := by rw [e]

/-- After point t: its column sums added to zero where j = 0, to the accumulator after the point before elsewhere. -/
theorem accAt_step (c : Dev nD) (t : Fin cfg1.N) :
    accAt V c t.val t.isLt = k1_pay2 (iblk1 V c 0 t) (iblk1 V c 1 t) (iblk1 V c 2 t)
      (if t.val % 32 = 0 then k1_pay1 (F := F) else accAt V c (t.val - 1) (Nat.lt_of_le_of_lt (Nat.sub_le _ _) t.isLt)) := by
  by_cases h0 : t.val % 32 = 0
  · have h1 : ¬t.val % 32 = 31 := by omega
    rw [if_pos h0]
    unfold accAt
    exact (snd_of_eq_mk (outsAt1_A V c t h0 h1)).trans (soutA_eq V c t h0 h1)
  · rw [if_neg h0]
    by_cases h1 : t.val % 32 = 31
    · unfold accAt
      exact (snd_of_eq_mk (outsAt1_C V c t h0 h1)).trans (soutC_eq V c t h0 h1 _)
    · unfold accAt
      exact (snd_of_eq_mk (outsAt1_B V c t h0 h1)).trans (soutB_eq V c t h0 h1 _)

end Cert.KernelIdeal.Hand

end
-- ==== Proof.IdealMarginValue.lean ====
/-
  The second call's output array as the specification's accumulator.
  A lane of the carried accumulator after grid point n = 32·h + j is the specification's accumulator of half h after its
  step j: at j = 0 the accumulator restarts from zero and takes tile 32·h's column sums, and each later point adds the
  column sums of its own tile b = 32·h + j, whose lane l is column 2048·b + l of the scores and the mask. The output
  array's first row block ends at the lane sum of the accumulator after point 31 and its second at that after point 63,
  so the two entries read add up to the specification's tile-by-tile margin.
-/
import proofs.«179181_j83227876262472_2_alg».proof.Proof.IdealRegion1Acc
import proofs.«179181_j83227876262472_2_alg».proof.Proof.PayloadValue

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window BodyObligation cellOf)

/-! ## The recursion alone -/

/-- A sequence that at each point adds that point's tile's column sum to zero where the point is a multiple of 32 and to
    its own previous value elsewhere is, at point 32·h + j, the specification's accumulator of half h after step j. -/
theorem acc_rec_eq_accHalf (g : Fin 1024 → EReal) (x mk : Fin 131072 → EReal) (l : Fin 2048)
    (A : (n : ℕ) → n < 64 → EReal)
    (hstep : ∀ n (hn : n < 64), A n hn
        = (if n % 32 = 0 then Cert.Spec.zero else A (n - 1) (Nat.lt_of_le_of_lt (Nat.sub_le _ _) hn))
          + Cert.Spec.tileCol g x mk ⟨n, hn⟩ l)
    (h : Fin 2) : ∀ (j : ℕ) (hj : j < 32) (n : ℕ) (hn : n < 64), n = 32 * h.val + j →
      A n hn = Cert.Spec.accHalf g x mk h l j hj
  | 0, hj, n, hn, e => by
    have hb : (⟨n, hn⟩ : Fin 64) = ⟨32 * h.val, by omega⟩ := Fin.ext (show n = 32 * h.val by omega)
    rw [Cert.Spec.accHalf, ← hb, hstep n hn, if_pos (by omega)]
  | j + 1, hj, n, hn, e => by
    have hb : (⟨n, hn⟩ : Fin 64) = ⟨32 * h.val + (j + 1), by omega⟩ :=
      Fin.ext (show n = 32 * h.val + (j + 1) by omega)
    rw [Cert.Spec.accHalf, ← hb, hstep n hn, if_neg (by omega),
      acc_rec_eq_accHalf g x mk l A hstep h j (by omega) (n - 1) _ (by omega)]

/-! ## The accumulator at the ideal values -/

section AtIdeal

variable (V : (c : Dev nD) → (b : Ref sig .tc) → Buf (Elt Ideal) ((c : Thread nD τ).loc b))

/-- The gathered ground-truth scores, the scores and the mask as the second call finds them in its arrays. -/
abbrev gOf (c : Dev nD) : Fin 1024 → EReal := fun r => V c main_v34 (ix2 r (0 : Fin 1))
abbrev xOf (c : Dev nD) : Fin 131072 → EReal := fun i => V c main_v32 (ix2 (0 : Fin 1) i)
abbrev mkOf (c : Dev nD) : Fin 131072 → EReal := fun i => V c main_v33 (ix2 (0 : Fin 1) i)

/-- One point's step at lane l: the carried lane plus the column sum of column 2048·t + l, the point's tile's lane l. -/
theorem step_lane (c : Dev nD) (t : Fin cfg1.N) (A : Vec Ideal S1x2048 .f32) (l : Fin 2048) :
    k1_pay2 (F := Ideal) (iblk1 V c 0 t) (iblk1 V c 1 t) (iblk1 V c 2 t) A (ix2 (0 : Fin 1) l)
      = A (ix2 (0 : Fin 1) l)
        + Cert.Spec.tileCol (gOf V c) (xOf V c) (mkOf V c) ⟨t.val, lt_of_lt_of_eq t.isLt (show cfg1.N = 64 from N_1)⟩ l := by
  refine (PayloadValue.k1_pay2_apply _ _ _ _ l).trans ?_
  refine congrArg (A (ix2 (0 : Fin 1) l) + ·) ?_
  unfold Cert.Spec.tileCol
  refine Finset.sum_congr rfl fun r _ => ?_
  rw [iblk1_0_apply, iblk1_1_apply, iblk1_2_apply]

/-- A lane of the accumulator after point n = 32·h + j is the specification's accumulator of half h after step j. -/
theorem accAt_lane_eq_accHalf (c : Dev nD) (h : Fin 2) (j : ℕ) (hj : j < 32) (l : Fin 2048)
    (n : ℕ) (hn : n < cfg1.N) (e : n = 32 * h.val + j) :
    accAt V c n hn (ix2 (0 : Fin 1) l) = Cert.Spec.accHalf (gOf V c) (xOf V c) (mkOf V c) h l j hj := by
  have hN : cfg1.N = 64 := N_1
  refine acc_rec_eq_accHalf (gOf V c) (xOf V c) (mkOf V c) l
    (fun n hn => accAt V c n (by omega) (ix2 (0 : Fin 1) l)) ?_ h j hj n (by omega) e
  intro n hn
  have hn' : n < cfg1.N := by omega
  refine (congrFun (accAt_step V c ⟨n, hn'⟩) (ix2 (0 : Fin 1) l)).trans ?_
  refine (step_lane V c ⟨n, hn'⟩ _ l).trans ?_
  simp only [Fin.val_mk]
  split_ifs with hm
  · rw [PayloadValue.k1_pay1_apply]
  · rfl

/-- The same at a point of the grid. -/
theorem accAt_eq_accHalf (c : Dev nD) (h : Fin 2) (j : ℕ) (hj : j < 32) (l : Fin 2048)
    (t : Fin cfg1.N) (ht : t.val = 32 * h.val + j) :
    accAt V c t.val t.isLt (ix2 (0 : Fin 1) l) = Cert.Spec.accHalf (gOf V c) (xOf V c) (mkOf V c) h l j hj :=
  accAt_lane_eq_accHalf V c h j hj l t.val t.isLt ht

/-- The output array's entry (i, j) after the last point, as an extended real. -/
def outAt (c : Dev nD) (i : Fin 16) (j : Fin 128) : EReal := (dat1 V c).arrAt 3 cfg1.N (ix2 i j)

theorem outAt_def (c : Dev nD) (i : Fin 16) (j : Fin 128) :
    outAt V c i j = (dat1 V c).arrAt 3 cfg1.N (ix2 i j) := rfl

/-- Entry (0, 0) is the lane sum of the first half's accumulator after its last step. -/
theorem outAt_top (c : Dev nD) :
    outAt V c 0 0 = ∑ l : Fin 2048, Cert.Spec.accHalf (gOf V c) (xOf V c) (mkOf V c) 0 l 31 (by omega) := by
  refine @Eq.trans EReal _ _ _ (arrAt1_3_top V c (0 : Fin 8) (0 : Fin 128)) ?_
  rw [PayloadValue.k1_pay3_apply]
  exact Finset.sum_congr rfl fun l _ => accAt_lane_eq_accHalf V c 0 31 (by omega) l 31 _ rfl

/-- Entry (8, 0) is the lane sum of the second half's accumulator after its last step. -/
theorem outAt_bot (c : Dev nD) :
    outAt V c 8 0 = ∑ l : Fin 2048, Cert.Spec.accHalf (gOf V c) (xOf V c) (mkOf V c) 1 l 31 (by omega) := by
  refine @Eq.trans EReal _ _ _ (arrAt1_3_bot V c (0 : Fin 8) (0 : Fin 128)) ?_
  rw [PayloadValue.k1_pay3_apply]
  exact Finset.sum_congr rfl fun l _ => accAt_lane_eq_accHalf V c 1 31 (by omega) l 63 _ rfl

/-- The output array's entries (0, 0) and (8, 0) add up to the specification's tile-by-tile margin. -/
theorem out_sum_eq (c : Dev nD) :
    outAt V c 0 0 + outAt V c 8 0 = Cert.Spec.marginTiles (gOf V c) (xOf V c) (mkOf V c) := by
  rw [outAt_top, outAt_bot]
  rfl

/-- The same with the array's entries written out. -/
theorem out_sum_eq' (c : Dev nD) :
    @HAdd.hAdd EReal EReal EReal instHAdd ((dat1 V c).arrAt 3 cfg1.N (ix2 (0 : Fin 16) (0 : Fin 128)))
        ((dat1 V c).arrAt 3 cfg1.N (ix2 (8 : Fin 16) (0 : Fin 128)))
      = Cert.Spec.marginTiles (gOf V c) (xOf V c) (mkOf V c) := out_sum_eq V c

end AtIdeal

end Cert.KernelIdeal.Hand

end
-- ==== Proof.IdealKernelValue.lean ====
/-
  The idealized kernel's result as the spec's formula.
  The first kernel's scalar is the row-by-row cross-entropy of the scores and the soft targets (its one store is its payload of
  the two whole operands, each the flat array read at 128·r + l). The second kernel's array holds, in rows 0–7 and 8–15, the
  lane sums of the two halves' accumulators; the host adds the entries (0, 0) and (8, 0). Together: the spec's kernelResult of
  the scores, the soft targets, the mask and the gathered scores.
-/
import proofs.«179181_j83227876262472_2_alg».proof.Proof.IdealHost
import proofs.«179181_j83227876262472_2_alg».proof.Proof.PayloadValue
import proofs.«179181_j83227876262472_2_alg».proof.Proof.LibRowSum
import Idealize.ShloMosaic.Lib.ValueLayout
import proofs.«179181_j83227876262472_2_alg».proof.Proof.IdealMarginValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## Reshapes and slices read at an index -/

section Layout
variable {α : Type}

/-- The flat array as 1024 rows of 128: row r, lane l is entry 128·r + l. -/
theorem rows_apply (x : S131072.Idx → α) (r : Fin 1024) (l : Fin 128) :
    shapeCast S1024x128 x shapeCasts_S131072_S1024x128 (ix2 r l) = x (ix1 ⟨128 * r.val + l.val, by omega⟩) :=
  shapeCast_apply x _ _ _ (by
    rw [Shape.rowMajor_val_two, Shape.rowMajor_val_one]
    show 128 * r.val + l.val = r.val * 128 + l.val
    omega)

/-- A 1 × 1 array as a scalar. -/
theorem scalar_apply (A : S1x1.Idx → α) (j : S_.Idx) :
    shapeCast S_ A shapeCasts_S1x1_S_ j = A (ix2 (0 : Fin 1) (0 : Fin 1)) :=
  shapeCast_apply A _ _ _ (by
    have h1 : S_.numel = 1 := rfl
    have := (S_.rowMajor j).isLt
    rw [Shape.rowMajor_val_two]
    show 0 * 1 + 0 = _
    omega)

/-- The entry (0, 0) of a 16 × 128 array, sliced out. -/
theorem slice00_apply (A : S16x128.Idx → α) :
    extractStridedSlice S1x1 ![0, 0] A slices_S16x128_S1x1_0_0 (ix2 (0 : Fin 1) (0 : Fin 1)) = A (ix2 (0 : Fin 16) (0 : Fin 128)) :=
  extractStridedSlice_apply _ A _ _ _ (fun a => by match a with | ⟨0, _⟩ => rfl | ⟨1, _⟩ => rfl)

/-- The entry (8, 0). -/
theorem slice80_apply (A : S16x128.Idx → α) :
    extractStridedSlice S1x1 ![8, 0] A slices_S16x128_S1x1_8_0 (ix2 (0 : Fin 1) (0 : Fin 1)) = A (ix2 (8 : Fin 16) (0 : Fin 128)) :=
  extractStridedSlice_apply _ A _ _ _ (fun a => by match a with | ⟨0, _⟩ => rfl | ⟨1, _⟩ => rfl)

end Layout

variable (m : (ℓ : Loc nD τ sig) → Buf (Elt Ideal) ℓ) (ρ : Dev nD → PrngReg)

/-! ## The cross-entropy half -/

/-- The first kernel's scalar is the row-by-row cross-entropy of the scores and the soft targets. -/
theorem ce_value (c : Dev nD) (j : S_.Idx) :
    W3 m ρ c (Proc.devRef .tc main_v31) j
      = Cert.Spec.ceRows (fun r l => m ((c : Thread nD τ).loc main_arg0) (ix1 ⟨128 * r.val + l.val, by omega⟩))
          (fun r l => softK (F := Ideal) (m ((c : Thread nD τ).loc main_arg1)) (ix1 ⟨128 * r.val + l.val, by omega⟩)) := by
  have e30 : W2 m ρ c (Proc.devRef .tc main_v30) = G0_2 (V1 m ρ) c := (W2_arr m ρ c 2).trans (arrAt0_2 (V1 m ρ) c)
  have e28 : (V1 m ρ c main_v28 : FVec Ideal S1024x128 .f32) = shapeCast S1024x128 (m ((c : Thread nD τ).loc main_arg0)) shapeCasts_S131072_S1024x128 := W1_v28 m ρ c
  have e29 : (V1 m ρ c main_v29 : FVec Ideal S1024x128 .f32) = shapeCast S1024x128 (softK (F := Ideal) (m ((c : Thread nD τ).loc main_arg1))) shapeCasts_S131072_S1024x128 := W1_v29 m ρ c
  rw [W3_v31, scalar_apply, e30]
  show k0_pay1 (F := Ideal) (V1 m ρ c main_v28) (V1 m ρ c main_v29) _ = _
  rw [e28, e29, Cert.KernelIdeal.PayloadValue.k0_pay1_apply]
  simp only [rows_apply]

/-! ## The margin half -/

/-- The entries (0, 0) and (8, 0) of the second kernel's array add up to the tile-by-tile margin sum of the gathered scores,
    the scores and the mask. -/
theorem margin_value (c : Dev nD) :
    outAt (V3 m ρ) c 0 0 + outAt (V3 m ρ) c 8 0
      = Cert.Spec.marginTiles
          (fun r => gtK (F := Ideal) (m ((c : Thread nD τ).loc main_arg0)) (m ((c : Thread nD τ).loc main_arg1)) (ix1 r))
          (fun i => m ((c : Thread nD τ).loc main_arg0) (ix1 i))
          (fun i => maskK (F := Ideal) (m ((c : Thread nD τ).loc main_arg1)) (ix1 i)) := by
  have e34 : (V3 m ρ c main_v34 : FVec Ideal S1024x1 .f32)
      = shapeCast S1024x1 (gtK (F := Ideal) (m ((c : Thread nD τ).loc main_arg0)) (m ((c : Thread nD τ).loc main_arg1))) shapeCasts_S1024_S1024x1 := W3_v34 m ρ c
  have e32 : (V3 m ρ c main_v32 : FVec Ideal S1x131072 .f32)
      = shapeCast S1x131072 (m ((c : Thread nD τ).loc main_arg0)) shapeCasts_S131072_S1x131072 := W3_v32 m ρ c
  have e33 : (V3 m ρ c main_v33 : FVec Ideal S1x131072 .f32)
      = shapeCast S1x131072 (maskK (F := Ideal) (m ((c : Thread nD τ).loc main_arg1))) shapeCasts_S131072_S1x131072 := W3_v33 m ρ c
  have hg : gOf (V3 m ρ) c = fun r => gtK (F := Ideal) (m ((c : Thread nD τ).loc main_arg0)) (m ((c : Thread nD τ).loc main_arg1)) (ix1 r) :=
    funext fun r => by
      show (V3 m ρ c main_v34 : FVec Ideal S1024x1 .f32) (ix2 r (0 : Fin 1)) = _
      rw [e34]; exact Cert.LibRowSum.shapeCast_a_a1_apply _ _ r 0
  have hx : xOf (V3 m ρ) c = fun i => m ((c : Thread nD τ).loc main_arg0) (ix1 i) :=
    funext fun i => by
      show (V3 m ρ c main_v32 : FVec Ideal S1x131072 .f32) (ix2 (0 : Fin 1) i) = _
      rw [e32]; exact shapeCast_a_1a_apply _ _ 0 i
  have hm : mkOf (V3 m ρ) c = fun i => maskK (F := Ideal) (m ((c : Thread nD τ).loc main_arg1)) (ix1 i) :=
    funext fun i => by
      show (V3 m ρ c main_v33 : FVec Ideal S1x131072 .f32) (ix2 (0 : Fin 1) i) = _
      rw [e33]; exact shapeCast_a_1a_apply _ _ 0 i
  rw [out_sum_eq, hg, hx, hm]

/-! ## The result -/

/-- The idealized kernel's result is the spec's kernelResult of the scores (by rows and flat), the soft targets by rows, the
    gathered scores and the mask. -/
theorem kernel_value (c : Dev nD) (j : S_.Idx) :
    W5 m ρ c (Proc.devRef .tc main_v43) j
      = Cert.Spec.kernelResult
          (fun r l => m ((c : Thread nD τ).loc main_arg0) (ix1 ⟨128 * r.val + l.val, by omega⟩))
          (fun r l => softK (F := Ideal) (m ((c : Thread nD τ).loc main_arg1)) (ix1 ⟨128 * r.val + l.val, by omega⟩))
          (fun r => gtK (F := Ideal) (m ((c : Thread nD τ).loc main_arg0)) (m ((c : Thread nD τ).loc main_arg1)) (ix1 r))
          (fun i => m ((c : Thread nD τ).loc main_arg0) (ix1 i))
          (fun i => maskK (F := Ideal) (m ((c : Thread nD τ).loc main_arg1)) (ix1 i)) := by
  have e35 : (W4 m ρ c (Proc.devRef .tc main_v35) : FVec Ideal S16x128 .f32) = (dat1 (V3 m ρ) c).arrAt 3 cfg1.N := W4_arr m ρ c 3
  rw [W5_v43]
  show @HAdd.hAdd EReal EReal EReal instHAdd (W3 m ρ c (Proc.devRef .tc main_v31) j)
      (Cert.Spec.half * Ideal.div
          ((shapeCast S_ (extractStridedSlice S1x1 ![0, 0] (W4 m ρ c (Proc.devRef .tc main_v35) : FVec Ideal S16x128 .f32) slices_S16x128_S1x1_0_0) shapeCasts_S1x1_S_ j : EReal)
            + (shapeCast S_ (extractStridedSlice S1x1 ![8, 0] (W4 m ρ c (Proc.devRef .tc main_v35) : FVec Ideal S16x128 .f32) slices_S16x128_S1x1_8_0) shapeCasts_S1x1_S_ j : EReal))
          Cert.Spec.pairs) = _
  rw [ce_value, scalar_apply, scalar_apply, slice00_apply, slice80_apply, e35]
  unfold Cert.Spec.kernelResult
  rw [← margin_value m ρ c]
  rfl

end Cert.KernelIdeal.Hand

end
-- ==== Proof.RefMargin.lean ====
/-
  The reference's margin stage as the specification's formula. The reference forms the table
  max (1 − (g_r − x_i)) 0 · mk_i over 1024 rows r and 131072 columns i — g the gathered scores, x the scores, mk the mask, each
  spread over the table by two layout operations — and sums it over both axes from 0. Read entry by entry, each layout
  operation reads its operand at the coordinate it keeps, and the two-axis sum is the sum over every index of the table,
  which is the sum over the pairs (r, i).
-/
import proofs.«179181_j83227876262472_2_alg».proof.Proof.RefReadP
import proofs.«179181_j83227876262472_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open scoped BigOperators

/-- The table's entry at row `r`, column `i`: the hinge of the gathered score of row `r` against the score of column `i`,
    times the mask of column `i`. -/
theorem table_apply (x0 : (⟨S131072, .f32⟩ : BufTy).Contents (Elt Ideal)) (x1 : (⟨S1024, .i32⟩ : BufTy).Contents (Elt Ideal))
    (r : Fin 1024) (i : Fin 131072) :
    val_main_v44 (F := Ideal) x0 x1 (ix2 r i)
      = max (Cert.Spec.one - (val_main_v33 (F := Ideal) x0 x1 (ix1 r) - x0 (ix1 i))) Cert.Spec.zero
          * val_main_v26 (F := Ideal) x1 (ix1 i) := by
  have e36 : idx_main_v34 (idx_main_v36 (ix2 r i)) = ix1 r := funext fun a => match a with | ⟨0, _⟩ => rfl
  have e37 : idx_main_v35 (idx_main_v37 (ix2 r i)) = ix1 i := funext fun a => match a with | ⟨0, _⟩ => rfl
  have e43 : idx_main_v42 (idx_main_v43 (ix2 r i)) = ix1 i := funext fun a => match a with | ⟨0, _⟩ => rfl
  rw [val_main_v44_apply, val_main_v41_apply, val_main_v40_apply, val_main_v39_apply, val_main_cst_11_apply,
    val_main_v38_apply, val_main_v36_apply, val_main_v34_apply, val_main_v37_apply, val_main_v35_apply,
    val_main_call1_v0_apply, val_main_call1_cst_apply, val_main_v43_apply, val_main_v42_apply, e36, e37, e43]
  simp only [Ideal.mulf_def, Ideal.maximumf_def, Ideal.subf_def, Ideal.ofBits_def]

/-- The margin stage is the specification's: zero plus the sum of the table over the pairs (row, column). -/
theorem margin_eq (x0 : (⟨S131072, .f32⟩ : BufTy).Contents (Elt Ideal)) (x1 : (⟨S1024, .i32⟩ : BufTy).Contents (Elt Ideal))
    (j : S_.Idx) :
    val_main_v45 (F := Ideal) x0 x1 j
      = Cert.Spec.marginFlat (fun r => val_main_v33 (F := Ideal) x0 x1 (ix1 r)) (fun i => x0 (ix1 i))
          (fun i => val_main_v26 (F := Ideal) x1 (ix1 i)) := by
  rw [val_main_v45_apply, val_main_cst_12_apply, Ideal.ofBits_def]
  unfold Cert.Spec.marginFlat
  refine congrArg (fun t => Cert.Spec.zero + t) ?_
  rw [← Equiv.sum_comp (idxEquiv2 (n0 := 1024) (n1 := 131072)).symm]
  exact Finset.sum_congr rfl fun p _ => table_apply x0 x1 p.1 p.2

end Cert.ReferenceIdeal.RefValue

end
-- ==== Proof.RefValue.lean ====
/- The reference program's result, read as the specification's formula. Every operation of the reference is read at an
   index, one at a time, down to the four arrays the specification takes as given: the scores, the gathered scores, the
   soft targets and the mask. The cross-entropy term is read here; the margin term is cited from its own module. A sum over a rank-1
   index set is the sum over its one coordinate, and a maximum over the one axis the fold of max over its coordinate. -/
import proofs.«179181_j83227876262472_2_alg».proof.Proof.RefReadP
import proofs.«179181_j83227876262472_2_alg».proof.Proof.RefMargin
import proofs.«179181_j83227876262472_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx

/-! ## Index sets by their coordinates -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A fold of a commutative, associative operation over a rank-1 index set is the fold over the coordinate. -/
theorem fold_idx1 {β : Type*} (op : β → β → β) [Std.Commutative op] [Std.Associative op] {n : Nat} (b : β)
    (f : (⟨1, ![n]⟩ : Shape).Idx → β) :
    (Finset.univ : Finset (⟨1, ![n]⟩ : Shape).Idx).fold op b f
      = (Finset.univ : Finset (Fin n)).fold op b (fun a => f (ix1 a)) := by
  rw [← Finset.map_univ_equiv (idxEquiv1 (n := n)).symm, Finset.fold_map]
  rfl

/-- The host's reduce of a vector to a scalar with a commutative, associative body is the fold over the coordinate from
    the initial value. -/
theorem hostReduce_scalar {α : Type} {n : Nat} {u : Shape} (f : α → α → α) [Std.Commutative f] [Std.Associative f]
    (x : (⟨1, ![n]⟩ : Shape).Idx → α) (init : u.Idx → α)
    (h : (⟨1, ![n]⟩ : Shape).ReducesTo [0] ⟨0, ![]⟩) (hu : 0 < u.numel) (k : (⟨0, ![]⟩ : Shape).Idx) :
    Host.reduce f x init h hu k
      = (Finset.univ : Finset (Fin n)).fold f (init (Shape.Idx.first hu)) (fun a => x (ix1 a)) := by
  rw [Host.reduce_eq_fold, Finset.filter_true_of_mem fun i _ => funext fun a => a.elim0]
  exact fold_idx1 f _ _

/-- The scalar shape's one index. -/
theorem idx0_eq (k k' : S_.Idx) : k = k' := funext fun a => a.elim0

section Ref

variable (x0 : (⟨S131072, .f32⟩ : BufTy).Contents (Elt Ideal)) (x1 : (⟨S1024, .i32⟩ : BufTy).Contents (Elt Ideal))

/-! ## The cross-entropy term -/

/-- The scores divided by the literal one. -/
theorem scaled_apply (i : Fin 131072) :
    val_main_v13 (F := Ideal) x0 (ix1 i) = Ideal.div (x0 (ix1 i)) Cert.Spec.one := by
  rw [val_main_v13_apply, val_main_v12_apply, val_main_cst_3_apply]
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The maximum as the specification writes it. -/
def specMax : EReal :=
  max Cert.Spec.negInf ((Finset.univ : Finset (Fin 131072)).fold max Cert.Spec.negInf
    (fun i => Ideal.div (x0 (ix1 i)) Cert.Spec.one))

/-- The host's reduce with a maximum body from minus infinity is the fold of max over the coordinate. -/
theorem reduceMax_apply (k : S_.Idx) :
    val_main_call0_v0 (F := Ideal) x0 k
      = (Finset.univ : Finset (Fin 131072)).fold max Cert.Spec.negInf (fun i => Ideal.div (x0 (ix1 i)) Cert.Spec.one) := by
  unfold val_main_call0_v0
  refine (hostReduce_scalar (FloatOps.maximumf (F := Ideal) (φ := .f32)) (val_main_v13 (F := Ideal) x0) _
    reducesTo_S131072_S_d0 h_S_ k).trans ?_
  have hf : (fun a : Fin 131072 => val_main_v13 (F := Ideal) x0 (ix1 a))
      = fun i : Fin 131072 => Ideal.div (x0 (ix1 i)) Cert.Spec.one := funext fun i => scaled_apply x0 i
  exact congrArg (fun f => Finset.fold max Cert.Spec.negInf f (Finset.univ : Finset (Fin 131072))) hf

theorem max_apply (k : S_.Idx) : val_main_call0_v1 (F := Ideal) x0 k = specMax x0 := by
  rw [val_main_call0_v1_apply, reduceMax_apply, val_main_call0_cst_0_apply]
  unfold specMax
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The scores shifted by their maximum. -/
theorem shifted_apply (i : Fin 131072) :
    val_main_call0_v4 (F := Ideal) x0 (ix1 i) = Ideal.div (x0 (ix1 i)) Cert.Spec.one - specMax x0 := by
  rw [val_main_call0_v4_apply, scaled_apply, val_main_call0_v3_apply, val_main_call0_v2_apply, max_apply]
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The sum of the exponentials as the specification writes it. -/
def specZ : EReal :=
  Cert.Spec.zero + ∑ i : Fin 131072, Ideal.exp (Ideal.div (x0 (ix1 i)) Cert.Spec.one - specMax x0)

theorem zsum_apply (k : S_.Idx) : val_main_call0_v6 (F := Ideal) x0 k = specZ x0 := by
  rw [val_main_call0_v6_apply, val_main_call0_cst_1_apply, Ideal.ofBits_def]
  unfold specZ
  refine congrArg (Cert.Spec.zero + ·) ?_
  refine (sum_idx1 _).trans ?_
  refine Finset.sum_congr rfl fun i _ => ?_
  rw [val_main_call0_v5_apply, shifted_apply]
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The log-probabilities. -/
theorem logp_apply (i : Fin 131072) :
    val_main_v14 (F := Ideal) x0 (ix1 i)
      = (Ideal.div (x0 (ix1 i)) Cert.Spec.one - specMax x0) - Ideal.log (specZ x0) := by
  rw [val_main_v14_apply, shifted_apply, val_main_call0_v9_apply, val_main_call0_v8_apply, val_main_call0_v7_apply,
    zsum_apply]
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The cross-entropy term. -/
theorem ce_apply (k : S_.Idx) :
    val_main_v17 (F := Ideal) x0 x1 k
      = -(Cert.Spec.zero + ∑ i : Fin 131072, val_main_v11 (F := Ideal) x1 (ix1 i)
          * ((Ideal.div (x0 (ix1 i)) Cert.Spec.one - specMax x0) - Ideal.log (specZ x0))) := by
  rw [val_main_v17_apply, val_main_v16_apply, val_main_cst_4_apply, Ideal.ofBits_def, Ideal.hostNegf_def, Ideal.negf_def]
  refine congrArg (fun t => -(Cert.Spec.zero + t)) ?_
  refine (sum_idx1 _).trans ?_
  refine Finset.sum_congr rfl fun i _ => ?_
  rw [val_main_v15_apply, logp_apply]
  simp only [Ideal.addf_def, Ideal.subf_def, Ideal.mulf_def, Ideal.maximumf_def, Ideal.hostDivf_def, Ideal.hostUnary_exp_def, Ideal.hostUnary_log_def, Ideal.hostNegf_def, Ideal.negf_def, Ideal.ofBits_def]

/-- The cross-entropy term is the specification's flat formula of the scores and the soft targets. -/
theorem ce_eq (j : S_.Idx) :
    val_main_v17 (F := Ideal) x0 x1 j
      = Cert.Spec.ceFlat (fun i => x0 (ix1 i)) (fun i => val_main_v11 (F := Ideal) x1 (ix1 i)) := by
  rw [ce_apply]
  simp only [Cert.Spec.ceFlat, specZ, specMax]

/-! ## The result -/

/-- The reference's result is the specification's flat formula of the scores, the gathered scores, the soft targets and
    the mask. -/
theorem result_eq (j : S_.Idx) :
    val_main_v48 (F := Ideal) x0 x1 j
      = Cert.Spec.referenceResult (fun r => val_main_v33 (F := Ideal) x0 x1 (ix1 r)) (fun i => x0 (ix1 i))
          (fun i => val_main_v11 (F := Ideal) x1 (ix1 i)) (fun i => val_main_v26 (F := Ideal) x1 (ix1 i)) := by
  rw [val_main_v48_apply, ce_eq, val_main_v47_apply, val_main_cst_14_apply, val_main_v46_apply, margin_eq,
    val_main_cst_13_apply]
  unfold Cert.Spec.referenceResult
  simp only [Ideal.addf_def, Ideal.mulf_def, Ideal.hostDivf_def, Ideal.ofBits_def]

end Ref

end Cert.ReferenceIdeal.RefValue

end
-- ==== Proof.SpecAlgebra.lean ====
/-
  The two results agree: algebra on the extended reals.
  The literals 1, 0 and −∞ are evaluated once; multiplying or dividing by 1 changes nothing; a maximum taken row by row is
  the maximum over all entries, and a sum taken row by row (or tile by tile) is the flat sum, regrouped along the bijection
  (r, l) ↦ n·r + l. For a real x and any extended real g, 1 − (g − x) = (1 − g) + x.
-/
import proofs.«179181_j83227876262472_2_alg».proof.Proof.Spec

noncomputable section

namespace Cert.Spec

open Idealize.ShloMosaic
open scoped BigOperators

/-! ## The literals -/

theorem one_eq : one = 1 := by
  have h : ((8388608 : ℝ) * ((2 : ℝ) ^ 23)⁻¹) = 1 := by norm_num
  simp [one, Ideal.ofBits, Ideal.ieee]
  exact_mod_cast h

theorem zero_eq : zero = 0 := by
  simp [zero, Ideal.ofBits, Ideal.ieee]

theorem negInf_eq : negInf = ⊥ := by
  simp [negInf, Ideal.ofBits, Ideal.ieee]

/-! ## Multiplying and dividing by one -/

theorem mul_one' (a : EReal) : a * one = a := by rw [one_eq, mul_one]

theorem div_one' (a : EReal) : Ideal.div a one = a := by
  rw [one_eq, Ideal.div, if_neg one_ne_zero, inv_one, mul_one]

/-! ## The margin law: for a real x and any extended real g, 1 − (g − x) = (1 − g) + x -/

theorem one_sub_sub (g : EReal) (r : ℝ) : (1 : EReal) - (g - (r : EReal)) = (1 - g) + (r : EReal) := by
  induction g using EReal.rec with
  | bot =>
    have h1 : (1 : EReal) + ⊤ = ⊤ := EReal.add_top_of_ne_bot (by rw [← EReal.coe_one]; exact EReal.coe_ne_bot 1)
    simp [sub_eq_add_neg, h1]
  | top => simp [sub_eq_add_neg]
  | coe t => norm_cast; ring

/-! ## Regrouping along (r, l) ↦ n·r + l -/

/-- The bijection (r, l) ↦ n·r + l from pairs of indices to a flat index. -/
def flatEquiv (m n N : ℕ) (h : m * n = N) : Fin m × Fin n ≃ Fin N :=
  finProdFinEquiv.trans (finCongr h)

theorem flatEquiv_val (m n N : ℕ) (h : m * n = N) (p : Fin m × Fin n) :
    (flatEquiv m n N h p).val = n * p.1.val + p.2.val := by
  simp [flatEquiv, finProdFinEquiv, Nat.add_comm]

/-- A sum taken row by row is the flat sum. -/
theorem sum_flat (m n N : ℕ) (h : m * n = N) (F : Fin N → EReal) (G : Fin m → Fin n → EReal)
    (hG : ∀ r l, G r l = F (flatEquiv m n N h (r, l))) :
    ∑ r : Fin m, ∑ l : Fin n, G r l = ∑ i : Fin N, F i := by
  rw [← Fintype.sum_prod_type']
  exact Fintype.sum_equiv (flatEquiv m n N h) _ _ (fun p => hG p.1 p.2)

/-- A maximum taken row by row (each fold starting from −∞) is the flat maximum. -/
theorem fold_max_flat (m n N : ℕ) (h : m * n = N) (F : Fin N → EReal) (G : Fin m → Fin n → EReal)
    (hG : ∀ r l, G r l = F (flatEquiv m n N h (r, l))) :
    (Finset.univ : Finset (Fin m)).fold max ⊥
        (fun r => (Finset.univ : Finset (Fin n)).fold max ⊥ (fun l => G r l))
      = (Finset.univ : Finset (Fin N)).fold max ⊥ F := by
  refine eq_of_forall_ge_iff (fun c => ?_)
  simp only [Finset.fold_max_le, bot_le, true_and, Finset.mem_univ, forall_const]
  constructor
  · intro H i
    have h1 := H ((flatEquiv m n N h).symm i).1 ((flatEquiv m n N h).symm i).2
    rw [hG] at h1
    simpa using h1
  · intro H r l
    rw [hG]
    exact H _

/-! ## The cross-entropy term -/

/-- With the rows of x and s read off the flat arrays along (r, l) ↦ 128·r + l, the row-by-row form is the flat form. -/
theorem ceRows_eq_ceFlat (x s : Fin 131072 → EReal) (xr sr : Fin 1024 → Fin 128 → EReal)
    (hxr : ∀ r l, xr r l = x (flatEquiv 1024 128 131072 rfl (r, l)))
    (hsr : ∀ r l, sr r l = s (flatEquiv 1024 128 131072 rfl (r, l))) :
    ceRows xr sr = ceFlat x s := by
  have hM := fold_max_flat 1024 128 131072 rfl x xr hxr
  unfold ceRows ceFlat
  simp only [mul_one', div_one', negInf_eq, zero_eq, zero_add, zero_sub, max_bot_left]
  rw [hM]
  generalize (Finset.univ : Finset (Fin 131072)).fold max ⊥ x = M
  have hZ : (∑ r : Fin 1024, ∑ l : Fin 128, Ideal.exp (xr r l - M)) = ∑ i : Fin 131072, Ideal.exp (x i - M) :=
    sum_flat 1024 128 131072 rfl (fun i => Ideal.exp (x i - M)) _ (fun r l => by rw [hxr])
  rw [hZ]
  generalize Ideal.log (∑ i : Fin 131072, Ideal.exp (x i - M)) = L
  refine congrArg Neg.neg ?_
  exact sum_flat 1024 128 131072 rfl (fun i => s i * ((x i - M) - L)) _ (fun r l => by rw [hxr, hsr])

/-! ## The margin term -/

/-- One column of the margin table, summed over the 1024 rows. -/
def colSum (g : Fin 1024 → EReal) (x mk : Fin 131072 → EReal) (i : Fin 131072) : EReal :=
  ∑ r : Fin 1024, max ((one - g r) + x i) zero * mk i

theorem tileCol_eq (g : Fin 1024 → EReal) (x mk : Fin 131072 → EReal) (b : Fin 64) (l : Fin 2048) :
    tileCol g x mk b l = colSum g x mk ⟨2048 * b.val + l.val, by omega⟩ := rfl

/-- The accumulator after step j is the sum of the tiles 32·h … 32·h + j. -/
theorem accHalf_eq (g : Fin 1024 → EReal) (x mk : Fin 131072 → EReal) (h : Fin 2) (l : Fin 2048) :
    ∀ (j : ℕ) (hj : j < 32),
      accHalf g x mk h l j hj = ∑ k : Fin (j + 1), tileCol g x mk ⟨32 * h.val + k.val, by omega⟩ l
  | 0, _ => by
    rw [accHalf, zero_eq, zero_add, Fin.sum_univ_one]
    rfl
  | j + 1, hj => by
    rw [accHalf, accHalf_eq g x mk h l j (by omega)]
    exact (Fin.sum_univ_castSucc (fun k : Fin (j + 1 + 1) => tileCol g x mk ⟨32 * h.val + k.val, by omega⟩ l)).symm

/-- Tile by tile, the kernel's margin is the sum of all the column sums. -/
theorem marginTiles_eq (g : Fin 1024 → EReal) (x mk : Fin 131072 → EReal) :
    marginTiles g x mk = ∑ i : Fin 131072, colSum g x mk i := by
  have h1 : ∑ i : Fin 131072, colSum g x mk i = ∑ b : Fin 64, ∑ l : Fin 2048, tileCol g x mk b l :=
    (sum_flat 64 2048 131072 rfl (colSum g x mk) (tileCol g x mk)
      (fun b l => congrArg (colSum g x mk) (Fin.ext (flatEquiv_val 64 2048 131072 rfl (b, l)).symm))).symm
  have h2 : ∑ b : Fin 64, ∑ l : Fin 2048, tileCol g x mk b l
      = ∑ h : Fin 2, ∑ k : Fin 32, ∑ l : Fin 2048, tileCol g x mk ⟨32 * h.val + k.val, by omega⟩ l :=
    (sum_flat 2 32 64 rfl (fun b => ∑ l : Fin 2048, tileCol g x mk b l) _
      (fun h k => congrArg (fun b => ∑ l : Fin 2048, tileCol g x mk b l)
        (Fin.ext (flatEquiv_val 2 32 64 rfl (h, k)).symm))).symm
  rw [h1, h2, Fin.sum_univ_two]
  unfold marginTiles
  simp only [accHalf_eq]
  refine congrArg₂ (· + ·) ?_ ?_
  · exact Finset.sum_comm
  · exact Finset.sum_comm

/-- All at once, the reference's margin is the same sum: for a real x_i, 1 − (g_r − x_i) = (1 − g_r) + x_i. -/
theorem marginFlat_eq (g : Fin 1024 → EReal) (x mk : Fin 131072 → EReal) (hx : ∀ i, ∃ r : ℝ, x i = (r : EReal)) :
    marginFlat g x mk = ∑ i : Fin 131072, colSum g x mk i := by
  unfold marginFlat colSum
  rw [zero_eq, zero_add, Fintype.sum_prod_type, Finset.sum_comm]
  refine Finset.sum_congr rfl (fun i _ => Finset.sum_congr rfl (fun r _ => ?_))
  obtain ⟨t, ht⟩ := hx i
  simp only [ht, one_eq, one_sub_sub]

theorem marginTiles_eq_marginFlat (g : Fin 1024 → EReal) (x mk : Fin 131072 → EReal)
    (hx : ∀ i, ∃ r : ℝ, x i = (r : EReal)) : marginTiles g x mk = marginFlat g x mk := by
  rw [marginTiles_eq, marginFlat_eq g x mk hx]

/-! ## The results -/

theorem kernel_eq_reference (g : Fin 1024 → EReal) (x s mk : Fin 131072 → EReal) (hx : ∀ i, ∃ r : ℝ, x i = (r : EReal)) :
    kernelResult (fun r l => x ⟨128 * r.val + l.val, by omega⟩) (fun r l => s ⟨128 * r.val + l.val, by omega⟩) g x mk
      = referenceResult g x s mk := by
  unfold kernelResult referenceResult
  rw [marginTiles_eq_marginFlat g x mk hx]
  rw [ceRows_eq_ceFlat x s _ _
    (fun r l => congrArg x (Fin.ext (flatEquiv_val 1024 128 131072 rfl (r, l)).symm))
    (fun r l => congrArg s (Fin.ext (flatEquiv_val 1024 128 131072 rfl (r, l)).symm))]

end Cert.Spec

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.FiniteScores.lean ====
/- The precondition read at the ideal values: "every score is finite" says every entry of the scores array is a real
   number. The predicate compares each entry's absolute value with +infinity and takes the "and" of the comparisons;
   it is 1 only if every comparison is, and an extended real whose absolute value is strictly below the top is a real. -/
import proofs.«179181_j83227876262472_2_alg».proof.Defs
import proofs.«179181_j83227876262472_2_alg».proof.Proof.Gen.Pre_finite_inputs
import proofs.«179181_j83227876262472_2_alg».proof.Proof.Gen.KernelIdeal
import proofs.«179181_j83227876262472_2_alg».proof.Proof.LibRealEntries
import Idealize.ShloMosaic.Lib.ReduceAll
import Idealize.ShloMosaic.Lib.ValueIdx

noncomputable section

namespace Cert.Proof.Finite

open Idealize.ShloMosaic Idealize.SL.Sem

/-- Under the precondition every score, on every device, is a real number. -/
theorem scores_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i : Fin 131072, ∃ r : ℝ,
      (m ((c.tc : Thread Cert.KernelIdeal.nD Cert.KernelIdeal.τ).loc Cert.KernelIdeal.main_arg0)) (ValueIdx.ix1 i) = (r : EReal) := by
  intro i
  have e := congrFun (h c) ValueIdx.ix0
  dsimp only [Cert.Pre_finite_inputs.fn] at e
  exact Cert.RealEntries.allReal_of_reduce _ _ _ _ _ _ ValueIdx.ix0 e (ValueIdx.ix1 i)

end Cert.Proof.Finite

end
-- ==== Proof.lean ====
/-
  The certificate: a label-smoothing ranking loss computed by two TPU kernels — a cross-entropy kernel over the scores as
  1024 rows of 128, and a margin kernel that accumulates relu ((1 − g_r) + x_i) · mask_i over tiles of 2048 columns in two
  halves — against the plain array program (log-softmax cross-entropy plus the pairwise margin over the whole 1024 × 131072
  table), as extended reals, for finite scores.

  Frames. Each kernel program is five segments (host operations, a kernel region, host operations, a kernel region, host
  operations); its run is assembled from one proof-data record per region: the first kernel stores its one payload; the second
  carries an accumulator between grid points, which the region's invariant tracks. The word-level program's frame and the
  idealized program's are the same proof at the two instances. The reference is a host program; its frame is its run with the
  result dropped. The ideal pass rewrote nothing, so the idealization is the program's own text read at the ideal instance.

  Values. The soft targets, the mask and the gathered scores are computed by the same host operations in both programs and
  are never opened. The idealized kernel's result is the row-by-row cross-entropy plus half of the tile-by-tile margin sum over
  133169152; the reference's is the flat cross-entropy plus half of the whole-table margin sum over 133169152. They are equal
  because a maximum and a sum over 1024 × 128 entries may be taken row by row, multiplying or dividing by 1 changes nothing,
  and 1 − (g − x) = (1 − g) + x when x is real (here: finite scores), after which the table's sum regroups by tiles.
-/
import proofs.«179181_j83227876262472_2_alg».proof.Defs
import proofs.«179181_j83227876262472_2_alg».proof.Proof.Gen.Kernel
import proofs.«179181_j83227876262472_2_alg».proof.Proof.Gen.KernelIdeal
import proofs.«179181_j83227876262472_2_alg».proof.Proof.Gen.ReferenceIdeal
import proofs.«179181_j83227876262472_2_alg».proof.Proof.Gen.Pre_finite_inputs
import proofs.«179181_j83227876262472_2_alg».proof.Proof.BitsRun
import proofs.«179181_j83227876262472_2_alg».proof.Proof.IdealKernelValue
import proofs.«179181_j83227876262472_2_alg».proof.Proof.RefRunP
import proofs.«179181_j83227876262472_2_alg».proof.Proof.RefValue
import proofs.«179181_j83227876262472_2_alg».proof.Proof.SpecAlgebra
import proofs.«179181_j83227876262472_2_alg».proof.Proof.FiniteScores
import Idealize.ShloMosaic.Adequacy
import Idealize.ShloMosaic.Init

set_option maxRecDepth 16384

noncomputable section

namespace Cert.Proof

open Idealize.ShloMosaic Idealize.ShloMosaic.TcCoe Idealize.SL.Sem

/-! ## The frames -/

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.ValueP.run_frame (F := Ideal) m ρ

/-- The ideal pass rewrote no operation. -/
theorem preserves : Cert.preserves_Kernel_KernelIdeal := trivial

/-! ## The shared host arrays are the same terms in both programs -/

theorem soft_eq (idx : IVec Cert.KernelIdeal.S1024 32) :
    (Cert.KernelIdeal.Hand.softK (F := Ideal) idx : Cert.KernelIdeal.S131072.Idx → EReal) = Cert.ReferenceIdeal.ReadP.val_main_v11 (F := Ideal) idx := rfl
theorem mask_eq (idx : IVec Cert.KernelIdeal.S1024 32) :
    (Cert.KernelIdeal.Hand.maskK (F := Ideal) idx : Cert.KernelIdeal.S131072.Idx → EReal) = Cert.ReferenceIdeal.ReadP.val_main_v26 (F := Ideal) idx := rfl
theorem gt_eq (x : FVec Ideal Cert.KernelIdeal.S131072 .f32) (idx : IVec Cert.KernelIdeal.S1024 32) :
    (Cert.KernelIdeal.Hand.gtK (F := Ideal) x idx : Cert.KernelIdeal.S1024.Idx → EReal) = Cert.ReferenceIdeal.ReadP.val_main_v33 (F := Ideal) x idx := rfl

/-! ## The two results are equal -/

/-- For finite scores the reference's last stage, on the kernel program's arguments, is the kernel program's result. -/
theorem results_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) (j : Cert.KernelIdeal.S_.Idx) :
    Cert.ReferenceIdeal.ReadP.val_main_v48 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) j
      = Cert.KernelIdeal.Hand.W5 m ρ c (Proc.devRef .tc Cert.KernelIdeal.main_v43) j := by
  rw [Cert.ReferenceIdeal.RefValue.result_eq, Cert.KernelIdeal.Hand.kernel_value]
  rw [← soft_eq, ← mask_eq, ← gt_eq]
  exact (Cert.Spec.kernel_eq_reference _ _ _ _ (Cert.Proof.Finite.scores_real m hpre c)).symm

theorem algebraic : Cert.algebraic_KernelIdeal_ReferenceIdeal := by
  intro m ρ m' ρ' hpre hagree
  refine ⟨fun c => Cert.KernelIdeal.Hand.W5 m ρ c (Proc.devRef .tc Cert.KernelIdeal.main_v43),
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  funext j
  show Cert.ReferenceIdeal.ReadP.val_main_v48 (F := Ideal) _ _ j = _
  rw [(hagree c).1, (hagree c).2]
  exact results_agree m ρ hpre c j

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
